-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v103) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S600000 : Shape := ⟨1, ![600000]⟩
abbrev S100000 : Shape := ⟨1, ![100000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S3x128x128 .f32) (main_arg2 : FVec F S3x128x128 .f32) (main_arg3 : FVec F S3x128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : IVec S600000 32) (main_arg11 : IVec S600000 32) (main_arg12 : IVec S100000 32) (main_arg13 : IVec S100000 32) (main_arg14 : IVec S100000 32) (main_arg15 : IVec S100000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S600000 : Shape := ⟨1, ![600000]⟩
abbrev S100000 : Shape := ⟨1, ![100000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S1x128 : Shape := ⟨2, ![1, 128]⟩
abbrev S5000x128 : Shape := ⟨2, ![5000, 128]⟩
abbrev S100000x1 : Shape := ⟨2, ![100000, 1]⟩
abbrev S100000x128 : Shape := ⟨2, ![100000, 128]⟩
abbrev S200000x128 : Shape := ⟨2, ![200000, 128]⟩
abbrev S1x1 : Shape := ⟨2, ![1, 1]⟩
abbrev S200000x1 : Shape := ⟨2, ![200000, 1]⟩
abbrev S5000x1 : Shape := ⟨2, ![5000, 1]⟩

abbrev nBuf : Space → Nat
  | .hbm => 140
  | .vmem => 37
  | .smem => 0
  | _ => 0

abbrev hbmTy0_0 (i : Nat) : BufTy := match i % 128 with
  | 0 => ⟨S50000x128, .f32⟩
  | 1 => ⟨S3x128x128, .f32⟩
  | 2 => ⟨S3x128x128, .f32⟩
  | 3 => ⟨S3x128, .f32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S600000, .i32⟩
  | 11 => ⟨S600000, .i32⟩
  | 12 => ⟨S100000, .i32⟩
  | 13 => ⟨S100000, .i32⟩
  | 14 => ⟨S100000, .i32⟩
  | 15 => ⟨S100000, .i32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S50000x128, .f32⟩
  | 40 => ⟨S50000x128, .f32⟩
  | 41 => ⟨S1x128x128, .f32⟩
  | 42 => ⟨S128x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S50000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S50000x128, .f32⟩
  | 86 => ⟨S50000x128, .f32⟩
  | 87 => ⟨S1x128x128, .f32⟩
  | 88 => ⟨S128x128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S50000x128, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x128, .f32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000x128, .f32⟩
  | 113 => ⟨S100000x128, .f32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x128, .f32⟩
  | 123 => ⟨S_, .i32⟩
  | 124 => ⟨S100000, .i32⟩
  | 125 => ⟨S100000, .i1⟩
  | 126 => ⟨S_, .i32⟩
  | 127 => ⟨S100000, .i32⟩
  | _ => ⟨S50000x128, .f32⟩

abbrev hbmTy0_1 (i : Nat) : BufTy := match i % 128 with
  | 0 => ⟨S100000, .i32⟩
  | 1 => ⟨S100000, .i32⟩
  | 2 => ⟨S100000x1, .i32⟩
  | 3 => ⟨S100000x128, .f32⟩
  | 4 => ⟨S100000x128, .f32⟩
  | 5 => ⟨S200000x128, .f32⟩
  | 6 => ⟨S1x128, .f32⟩
  | 7 => ⟨S1x128, .f32⟩
  | 8 => ⟨S1x1, .f32⟩
  | 9 => ⟨S200000x1, .f32⟩
  | 10 => ⟨S100000x1, .f32⟩
  | 11 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S128x1, .f32⟩
  | .local _ .vmem, ⟨34, _⟩ => ⟨S1x1, .f32⟩
  | .local _ .vmem, ⟨35, _⟩ => ⟨S5000x1, .f32⟩
  | .local _ .vmem, ⟨36, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_c_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_c_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_12 : Ref sig .tc := ⟨.hbm, 104, rfl⟩
abbrev main_v74 : Ref sig .tc := ⟨.hbm, 105, rfl⟩
abbrev main_v75 : Ref sig .tc := ⟨.hbm, 106, rfl⟩
abbrev main_c_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_16 : Ref sig .tc := ⟨.hbm, 123, rfl⟩
abbrev main_v89 : Ref sig .tc := ⟨.hbm, 124, rfl⟩
abbrev main_v90 : Ref sig .tc := ⟨.hbm, 125, rfl⟩
abbrev main_c_17 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S200000x128_d0 : Shape.Concatenates [S100000x128, S100000x128] S200000x128 0
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  slices_S200000x1_S100000x1_0_0 : S200000x1.Slices ![0, 0] S100000x1
  slices_S200000x1_S100000x1_100000_0 : S200000x1.Slices ![100000, 0] S100000x1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  gather_S50000x128_S100000x1_S100000x128_1_0_n_n_0_1_1128_wf : GatherDims.WF S50000x128 S100000x1 S100000x128 [1] [0] [] [0] [] 1 ![1, 128]
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S128x1.size a
  hwx3_5 : ∀ i : grid3.Coords, EltTy.bits .f32 = 32 ∨ (Rect.block (s := S128x1) S128x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S200000x1.size a
  hwx3_7 : ∀ i : grid3.Coords, EltTy.bits .f32 = 32 ∨ (Rect.block (s := S200000x1) S5000x1.size (cc3_transform_7 i) (hinb3_7 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v97) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S128x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v100) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S600000 : Shape := ⟨1, ![600000]⟩
abbrev S100000 : Shape := ⟨1, ![100000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128x128 : Shape := ⟨3, ![1, 128, 128]⟩
abbrev S1x128 : Shape := ⟨2, ![1, 128]⟩
abbrev S100000x1 : Shape := ⟨2, ![100000, 1]⟩
abbrev S100000x128 : Shape := ⟨2, ![100000, 128]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S3x128x128, .f32⟩
  | 2 => ⟨S3x128x128, .f32⟩
  | 3 => ⟨S3x128, .f32⟩
  | 4 => ⟨S128x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S600000, .i32⟩
  | 11 => ⟨S600000, .i32⟩
  | 12 => ⟨S100000, .i32⟩
  | 13 => ⟨S100000, .i32⟩
  | 14 => ⟨S100000, .i32⟩
  | 15 => ⟨S100000, .i32⟩
  | 16 => ⟨S_, .f32⟩
  | 17 => ⟨S600000, .f32⟩
  | 18 => ⟨S_, .f32⟩
  | 19 => ⟨S50000, .f32⟩
  | 20 => ⟨S600000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128x128, .f32⟩
  | 45 => ⟨S128x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128x128, .f32⟩
  | 75 => ⟨S128x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S50000x128, .f32⟩
  | 97 => ⟨S600000x1, .i32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S1x128x128, .f32⟩
  | 105 => ⟨S128x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x128, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S50000x128, .f32⟩

abbrev hbmTy0_1 (i : Nat) : BufTy := match i % 128 with
  | 0 => ⟨S100000, .i32⟩
  | 1 => ⟨S100000x1, .i32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x1, .f32⟩
  | 19 => ⟨S1x1, .f32⟩
  | 20 => ⟨S100000x1, .f32⟩
  | 21 => ⟨S100000x1, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x128, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x1, .f32⟩
  | 56 => ⟨S1x1, .f32⟩
  | 57 => ⟨S100000x1, .f32⟩
  | 58 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_c_7 : Ref sig .tc := ⟨.hbm, 86, rfl⟩
abbrev main_v57 : Ref sig .tc := ⟨.hbm, 87, rfl⟩
abbrev main_v58 : Ref sig .tc := ⟨.hbm, 88, rfl⟩
abbrev main_c_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_10 : Ref sig .tc := ⟨.hbm, 113, rfl⟩
abbrev main_v81 : Ref sig .tc := ⟨.hbm, 114, rfl⟩
abbrev main_v82 : Ref sig .tc := ⟨.hbm, 115, rfl⟩
abbrev main_c_11 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_12 : Ref sig .tc := ⟨.hbm, 122, rfl⟩
abbrev main_v88 : Ref sig .tc := ⟨.hbm, 123, rfl⟩
abbrev main_v89 : Ref sig .tc := ⟨.hbm, 124, rfl⟩
abbrev main_c_13 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call2_cst : Ref sig .tc := ⟨.hbm, 136, rfl⟩
abbrev main_call2_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call3_cst : Ref sig .tc := ⟨.hbm, 143, rfl⟩
abbrev main_call3_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_14 : Ref sig .tc := ⟨.hbm, 150, rfl⟩
abbrev main_v110 : Ref sig .tc := ⟨.hbm, 151, rfl⟩
abbrev main_v111 : Ref sig .tc := ⟨.hbm, 152, rfl⟩
abbrev main_c_15 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_16 : Ref sig .tc := ⟨.hbm, 159, rfl⟩
abbrev main_v117 : Ref sig .tc := ⟨.hbm, 160, rfl⟩
abbrev main_v118 : Ref sig .tc := ⟨.hbm, 161, rfl⟩
abbrev main_c_17 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_call4_cst : Ref sig .tc := ⟨.hbm, 173, rfl⟩
abbrev main_call4_v0 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_call5_cst : Ref sig .tc := ⟨.hbm, 180, rfl⟩
abbrev main_call5_v0 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S100000_S100000x1_0 : S100000.BroadcastsInDim S100000x1 (![0] : Fin 1 → Fin S100000x1.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  gather_S50000x128_S100000x1_S100000x128_1_0_n_n_0_1_1128_wf : GatherDims.WF S50000x128 S100000x1 S100000x128 [1] [0] [] [0] [] 1 ![1, 128]
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's whole run, with every buffer's final contents kept.

  The program is five stretches of host operations around four pipelined regions. Its buffer contents at the nine
  segment boundaries are a fold from the launch memory: a stretch applies its operations, a region replaces the
  arrays of its windows by what its write-backs leave and keeps every other buffer. This module states that every
  weakly fair execution terminates, faults nowhere, and ends with EVERY unscoped buffer of every core at the last
  stage of that fold — the results included, which is what a value statement reads.
-/
import proofs.«145613_j3590592659701_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and
    in its final state each unscoped buffer of each core holds the last stage of the fold of the program's segments
    over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.Carried.lean ====
/-
  What the fold of the kernel's segments leaves, at each boundary, in the buffers no later segment writes.

  The kernel's program is a fold of nine segments over the launch memory (host stretch, region, host stretch, …). The
  arguments, and the column of clamped in-degrees the first stretch computes, are written by nothing afterwards and are
  no region's output array; so at every later boundary each still holds what it held after the first stretch. These
  facts let a later stretch's operations be read as functions of the launch arrays.
-/
import proofs.«145613_j3590592659701_1_alg».proof.Proof.Gen.KernelIdeal.Frame
import proofs.«145613_j3590592659701_1_alg».proof.Proof.Gen.ReferenceIdeal.Read
import Idealize.ShloMosaic.Lib.StableHlo.Run

set_option maxRecDepth 16384

noncomputable section

namespace Cert.KernelIdeal.Boundary

open Cert.KernelIdeal Cert.KernelIdeal.Gen Cert.ReferenceIdeal.Read
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

/-- An argument's launch contents on core `c`. -/
abbrev arg (b : Ref sig .tc) : Buf (Elt Ideal) ((c : Thread nD τ).loc b) := m ((c : Thread nD τ).loc b)

/-! ## Buffers no segment writes, carried along the fold

Each of these is written by no host operation after the first stretch and is the array of no earlier region's output
window, so at every later boundary it still holds what the first stretch left: an argument its launch contents, the
clamped in-degree column its value from the first stretch. -/

theorem at1_arg1 : W1 m ρ c (Proc.devRef .tc main_arg1) = arg m c main_arg1 := by
  show StableHlo.after hostOps0 (W0 m ρ c) (Proc.devRef .tc main_arg1) = _
  after_results_simp <;> rfl
theorem at2_arg1 : W2 m ρ c (Proc.devRef .tc main_arg1) = arg m c main_arg1 :=
  (W2_of_ne m ρ c main_arg1 (by decide)).trans (at1_arg1 m ρ c)
theorem at3_arg1 : W3 m ρ c (Proc.devRef .tc main_arg1) = arg m c main_arg1 := by
  show StableHlo.after hostOps1 (W2 m ρ c) (Proc.devRef .tc main_arg1) = _
  after_results_simp
  exact at2_arg1 m ρ c
theorem at4_arg1 : W4 m ρ c (Proc.devRef .tc main_arg1) = arg m c main_arg1 :=
  (W4_of_ne m ρ c main_arg1 (by decide)).trans (at3_arg1 m ρ c)

theorem at1_arg2 : W1 m ρ c (Proc.devRef .tc main_arg2) = arg m c main_arg2 := by
  show StableHlo.after hostOps0 (W0 m ρ c) (Proc.devRef .tc main_arg2) = _
  after_results_simp <;> rfl
theorem at2_arg2 : W2 m ρ c (Proc.devRef .tc main_arg2) = arg m c main_arg2 :=
  (W2_of_ne m ρ c main_arg2 (by decide)).trans (at1_arg2 m ρ c)
theorem at3_arg2 : W3 m ρ c (Proc.devRef .tc main_arg2) = arg m c main_arg2 := by
  show StableHlo.after hostOps1 (W2 m ρ c) (Proc.devRef .tc main_arg2) = _
  after_results_simp
  exact at2_arg2 m ρ c
theorem at4_arg2 : W4 m ρ c (Proc.devRef .tc main_arg2) = arg m c main_arg2 :=
  (W4_of_ne m ρ c main_arg2 (by decide)).trans (at3_arg2 m ρ c)

theorem at1_arg3 : W1 m ρ c (Proc.devRef .tc main_arg3) = arg m c main_arg3 := by
  show StableHlo.after hostOps0 (W0 m ρ c) (Proc.devRef .tc main_arg3) = _
  after_results_simp <;> rfl
theorem at2_arg3 : W2 m ρ c (Proc.devRef .tc main_arg3) = arg m c main_arg3 :=
  (W2_of_ne m ρ c main_arg3 (by decide)).trans (at1_arg3 m ρ c)
theorem at3_arg3 : W3 m ρ c (Proc.devRef .tc main_arg3) = arg m c main_arg3 := by
  show StableHlo.after hostOps1 (W2 m ρ c) (Proc.devRef .tc main_arg3) = _
  after_results_simp
  exact at2_arg3 m ρ c
theorem at4_arg3 : W4 m ρ c (Proc.devRef .tc main_arg3) = arg m c main_arg3 :=
  (W4_of_ne m ρ c main_arg3 (by decide)).trans (at3_arg3 m ρ c)

theorem at1_arg10 : W1 m ρ c (Proc.devRef .tc main_arg10) = arg m c main_arg10 := by
  show StableHlo.after hostOps0 (W0 m ρ c) (Proc.devRef .tc main_arg10) = _
  after_results_simp <;> rfl
theorem at2_arg10 : W2 m ρ c (Proc.devRef .tc main_arg10) = arg m c main_arg10 :=
  (W2_of_ne m ρ c main_arg10 (by decide)).trans (at1_arg10 m ρ c)
theorem at3_arg10 : W3 m ρ c (Proc.devRef .tc main_arg10) = arg m c main_arg10 := by
  show StableHlo.after hostOps1 (W2 m ρ c) (Proc.devRef .tc main_arg10) = _
  after_results_simp
  exact at2_arg10 m ρ c
theorem at4_arg10 : W4 m ρ c (Proc.devRef .tc main_arg10) = arg m c main_arg10 :=
  (W4_of_ne m ρ c main_arg10 (by decide)).trans (at3_arg10 m ρ c)

theorem at1_arg11 : W1 m ρ c (Proc.devRef .tc main_arg11) = arg m c main_arg11 := by
  show StableHlo.after hostOps0 (W0 m ρ c) (Proc.devRef .tc main_arg11) = _
  after_results_simp <;> rfl
theorem at2_arg11 : W2 m ρ c (Proc.devRef .tc main_arg11) = arg m c main_arg11 :=
  (W2_of_ne m ρ c main_arg11 (by decide)).trans (at1_arg11 m ρ c)
theorem at3_arg11 : W3 m ρ c (Proc.devRef .tc main_arg11) = arg m c main_arg11 := by
  show StableHlo.after hostOps1 (W2 m ρ c) (Proc.devRef .tc main_arg11) = _
  after_results_simp
  exact at2_arg11 m ρ c
theorem at4_arg11 : W4 m ρ c (Proc.devRef .tc main_arg11) = arg m c main_arg11 :=
  (W4_of_ne m ρ c main_arg11 (by decide)).trans (at3_arg11 m ρ c)

theorem at1_deg : W1 m ρ c (Proc.devRef .tc main_v6) = val_main_v6 (F := Ideal) (arg m c main_arg11) := by
  show StableHlo.after hostOps0 (W0 m ρ c) (Proc.devRef .tc main_v6) = _
  after_results_simp <;> rfl
theorem at2_deg : W2 m ρ c (Proc.devRef .tc main_v6) = val_main_v6 (F := Ideal) (arg m c main_arg11) :=
  (W2_of_ne m ρ c main_v6 (by decide)).trans (at1_deg m ρ c)
theorem at3_deg : W3 m ρ c (Proc.devRef .tc main_v6) = val_main_v6 (F := Ideal) (arg m c main_arg11) := by
  show StableHlo.after hostOps1 (W2 m ρ c) (Proc.devRef .tc main_v6) = _
  after_results_simp
  exact at2_deg m ρ c
theorem at4_deg : W4 m ρ c (Proc.devRef .tc main_v6) = val_main_v6 (F := Ideal) (arg m c main_arg11) :=
  (W4_of_ne m ρ c main_v6 (by decide)).trans (at3_deg m ρ c)

theorem at1_arg4 : W1 m ρ c (Proc.devRef .tc main_arg4) = arg m c main_arg4 := by
  show StableHlo.after hostOps0 (W0 m ρ c) (Proc.devRef .tc main_arg4) = _
  after_results_simp <;> rfl
theorem at2_arg4 : W2 m ρ c (Proc.devRef .tc main_arg4) = arg m c main_arg4 :=
  (W2_of_ne m ρ c main_arg4 (by decide)).trans (at1_arg4 m ρ c)
theorem at3_arg4 : W3 m ρ c (Proc.devRef .tc main_arg4) = arg m c main_arg4 := by
  show StableHlo.after hostOps1 (W2 m ρ c) (Proc.devRef .tc main_arg4) = _
  after_results_simp
  exact at2_arg4 m ρ c
theorem at4_arg4 : W4 m ρ c (Proc.devRef .tc main_arg4) = arg m c main_arg4 :=
  (W4_of_ne m ρ c main_arg4 (by decide)).trans (at3_arg4 m ρ c)
theorem at5_arg4 : W5 m ρ c (Proc.devRef .tc main_arg4) = arg m c main_arg4 := by
  show StableHlo.after hostOps2 (W4 m ρ c) (Proc.devRef .tc main_arg4) = _
  after_results_simp
  exact at4_arg4 m ρ c
theorem at6_arg4 : W6 m ρ c (Proc.devRef .tc main_arg4) = arg m c main_arg4 :=
  (W6_of_ne m ρ c main_arg4 (by decide)).trans (at5_arg4 m ρ c)
theorem at7_arg4 : W7 m ρ c (Proc.devRef .tc main_arg4) = arg m c main_arg4 := by
  show StableHlo.after hostOps3 (W6 m ρ c) (Proc.devRef .tc main_arg4) = _
  after_results_simp
  exact at6_arg4 m ρ c

theorem at1_arg5 : W1 m ρ c (Proc.devRef .tc main_arg5) = arg m c main_arg5 := by
  show StableHlo.after hostOps0 (W0 m ρ c) (Proc.devRef .tc main_arg5) = _
  after_results_simp <;> rfl
theorem at2_arg5 : W2 m ρ c (Proc.devRef .tc main_arg5) = arg m c main_arg5 :=
  (W2_of_ne m ρ c main_arg5 (by decide)).trans (at1_arg5 m ρ c)
theorem at3_arg5 : W3 m ρ c (Proc.devRef .tc main_arg5) = arg m c main_arg5 := by
  show StableHlo.after hostOps1 (W2 m ρ c) (Proc.devRef .tc main_arg5) = _
  after_results_simp
  exact at2_arg5 m ρ c
theorem at4_arg5 : W4 m ρ c (Proc.devRef .tc main_arg5) = arg m c main_arg5 :=
  (W4_of_ne m ρ c main_arg5 (by decide)).trans (at3_arg5 m ρ c)
theorem at5_arg5 : W5 m ρ c (Proc.devRef .tc main_arg5) = arg m c main_arg5 := by
  show StableHlo.after hostOps2 (W4 m ρ c) (Proc.devRef .tc main_arg5) = _
  after_results_simp
  exact at4_arg5 m ρ c
theorem at6_arg5 : W6 m ρ c (Proc.devRef .tc main_arg5) = arg m c main_arg5 :=
  (W6_of_ne m ρ c main_arg5 (by decide)).trans (at5_arg5 m ρ c)

theorem at1_arg6 : W1 m ρ c (Proc.devRef .tc main_arg6) = arg m c main_arg6 := by
  show StableHlo.after hostOps0 (W0 m ρ c) (Proc.devRef .tc main_arg6) = _
  after_results_simp <;> rfl
theorem at2_arg6 : W2 m ρ c (Proc.devRef .tc main_arg6) = arg m c main_arg6 :=
  (W2_of_ne m ρ c main_arg6 (by decide)).trans (at1_arg6 m ρ c)
theorem at3_arg6 : W3 m ρ c (Proc.devRef .tc main_arg6) = arg m c main_arg6 := by
  show StableHlo.after hostOps1 (W2 m ρ c) (Proc.devRef .tc main_arg6) = _
  after_results_simp
  exact at2_arg6 m ρ c
theorem at4_arg6 : W4 m ρ c (Proc.devRef .tc main_arg6) = arg m c main_arg6 :=
  (W4_of_ne m ρ c main_arg6 (by decide)).trans (at3_arg6 m ρ c)
theorem at5_arg6 : W5 m ρ c (Proc.devRef .tc main_arg6) = arg m c main_arg6 := by
  show StableHlo.after hostOps2 (W4 m ρ c) (Proc.devRef .tc main_arg6) = _
  after_results_simp
  exact at4_arg6 m ρ c
theorem at6_arg6 : W6 m ρ c (Proc.devRef .tc main_arg6) = arg m c main_arg6 :=
  (W6_of_ne m ρ c main_arg6 (by decide)).trans (at5_arg6 m ρ c)
theorem at7_arg6 : W7 m ρ c (Proc.devRef .tc main_arg6) = arg m c main_arg6 := by
  show StableHlo.after hostOps3 (W6 m ρ c) (Proc.devRef .tc main_arg6) = _
  after_results_simp
  exact at6_arg6 m ρ c

theorem at1_arg7 : W1 m ρ c (Proc.devRef .tc main_arg7) = arg m c main_arg7 := by
  show StableHlo.after hostOps0 (W0 m ρ c) (Proc.devRef .tc main_arg7) = _
  after_results_simp <;> rfl
theorem at2_arg7 : W2 m ρ c (Proc.devRef .tc main_arg7) = arg m c main_arg7 :=
  (W2_of_ne m ρ c main_arg7 (by decide)).trans (at1_arg7 m ρ c)
theorem at3_arg7 : W3 m ρ c (Proc.devRef .tc main_arg7) = arg m c main_arg7 := by
  show StableHlo.after hostOps1 (W2 m ρ c) (Proc.devRef .tc main_arg7) = _
  after_results_simp
  exact at2_arg7 m ρ c
theorem at4_arg7 : W4 m ρ c (Proc.devRef .tc main_arg7) = arg m c main_arg7 :=
  (W4_of_ne m ρ c main_arg7 (by decide)).trans (at3_arg7 m ρ c)
theorem at5_arg7 : W5 m ρ c (Proc.devRef .tc main_arg7) = arg m c main_arg7 := by
  show StableHlo.after hostOps2 (W4 m ρ c) (Proc.devRef .tc main_arg7) = _
  after_results_simp
  exact at4_arg7 m ρ c
theorem at6_arg7 : W6 m ρ c (Proc.devRef .tc main_arg7) = arg m c main_arg7 :=
  (W6_of_ne m ρ c main_arg7 (by decide)).trans (at5_arg7 m ρ c)

theorem at1_arg8 : W1 m ρ c (Proc.devRef .tc main_arg8) = arg m c main_arg8 := by
  show StableHlo.after hostOps0 (W0 m ρ c) (Proc.devRef .tc main_arg8) = _
  after_results_simp <;> rfl
theorem at2_arg8 : W2 m ρ c (Proc.devRef .tc main_arg8) = arg m c main_arg8 :=
  (W2_of_ne m ρ c main_arg8 (by decide)).trans (at1_arg8 m ρ c)
theorem at3_arg8 : W3 m ρ c (Proc.devRef .tc main_arg8) = arg m c main_arg8 := by
  show StableHlo.after hostOps1 (W2 m ρ c) (Proc.devRef .tc main_arg8) = _
  after_results_simp
  exact at2_arg8 m ρ c
theorem at4_arg8 : W4 m ρ c (Proc.devRef .tc main_arg8) = arg m c main_arg8 :=
  (W4_of_ne m ρ c main_arg8 (by decide)).trans (at3_arg8 m ρ c)
theorem at5_arg8 : W5 m ρ c (Proc.devRef .tc main_arg8) = arg m c main_arg8 := by
  show StableHlo.after hostOps2 (W4 m ρ c) (Proc.devRef .tc main_arg8) = _
  after_results_simp
  exact at4_arg8 m ρ c
theorem at6_arg8 : W6 m ρ c (Proc.devRef .tc main_arg8) = arg m c main_arg8 :=
  (W6_of_ne m ρ c main_arg8 (by decide)).trans (at5_arg8 m ρ c)
theorem at7_arg8 : W7 m ρ c (Proc.devRef .tc main_arg8) = arg m c main_arg8 := by
  show StableHlo.after hostOps3 (W6 m ρ c) (Proc.devRef .tc main_arg8) = _
  after_results_simp
  exact at6_arg8 m ρ c

theorem at1_arg9 : W1 m ρ c (Proc.devRef .tc main_arg9) = arg m c main_arg9 := by
  show StableHlo.after hostOps0 (W0 m ρ c) (Proc.devRef .tc main_arg9) = _
  after_results_simp <;> rfl
theorem at2_arg9 : W2 m ρ c (Proc.devRef .tc main_arg9) = arg m c main_arg9 :=
  (W2_of_ne m ρ c main_arg9 (by decide)).trans (at1_arg9 m ρ c)
theorem at3_arg9 : W3 m ρ c (Proc.devRef .tc main_arg9) = arg m c main_arg9 := by
  show StableHlo.after hostOps1 (W2 m ρ c) (Proc.devRef .tc main_arg9) = _
  after_results_simp
  exact at2_arg9 m ρ c
theorem at4_arg9 : W4 m ρ c (Proc.devRef .tc main_arg9) = arg m c main_arg9 :=
  (W4_of_ne m ρ c main_arg9 (by decide)).trans (at3_arg9 m ρ c)
theorem at5_arg9 : W5 m ρ c (Proc.devRef .tc main_arg9) = arg m c main_arg9 := by
  show StableHlo.after hostOps2 (W4 m ρ c) (Proc.devRef .tc main_arg9) = _
  after_results_simp
  exact at4_arg9 m ρ c
theorem at6_arg9 : W6 m ρ c (Proc.devRef .tc main_arg9) = arg m c main_arg9 :=
  (W6_of_ne m ρ c main_arg9 (by decide)).trans (at5_arg9 m ρ c)

theorem at1_arg12 : W1 m ρ c (Proc.devRef .tc main_arg12) = arg m c main_arg12 := by
  show StableHlo.after hostOps0 (W0 m ρ c) (Proc.devRef .tc main_arg12) = _
  after_results_simp <;> rfl
theorem at2_arg12 : W2 m ρ c (Proc.devRef .tc main_arg12) = arg m c main_arg12 :=
  (W2_of_ne m ρ c main_arg12 (by decide)).trans (at1_arg12 m ρ c)
theorem at3_arg12 : W3 m ρ c (Proc.devRef .tc main_arg12) = arg m c main_arg12 := by
  show StableHlo.after hostOps1 (W2 m ρ c) (Proc.devRef .tc main_arg12) = _
  after_results_simp
  exact at2_arg12 m ρ c
theorem at4_arg12 : W4 m ρ c (Proc.devRef .tc main_arg12) = arg m c main_arg12 :=
  (W4_of_ne m ρ c main_arg12 (by decide)).trans (at3_arg12 m ρ c)
theorem at5_arg12 : W5 m ρ c (Proc.devRef .tc main_arg12) = arg m c main_arg12 := by
  show StableHlo.after hostOps2 (W4 m ρ c) (Proc.devRef .tc main_arg12) = _
  after_results_simp
  exact at4_arg12 m ρ c
theorem at6_arg12 : W6 m ρ c (Proc.devRef .tc main_arg12) = arg m c main_arg12 :=
  (W6_of_ne m ρ c main_arg12 (by decide)).trans (at5_arg12 m ρ c)

theorem at1_arg13 : W1 m ρ c (Proc.devRef .tc main_arg13) = arg m c main_arg13 := by
  show StableHlo.after hostOps0 (W0 m ρ c) (Proc.devRef .tc main_arg13) = _
  after_results_simp <;> rfl
theorem at2_arg13 : W2 m ρ c (Proc.devRef .tc main_arg13) = arg m c main_arg13 :=
  (W2_of_ne m ρ c main_arg13 (by decide)).trans (at1_arg13 m ρ c)
theorem at3_arg13 : W3 m ρ c (Proc.devRef .tc main_arg13) = arg m c main_arg13 := by
  show StableHlo.after hostOps1 (W2 m ρ c) (Proc.devRef .tc main_arg13) = _
  after_results_simp
  exact at2_arg13 m ρ c
theorem at4_arg13 : W4 m ρ c (Proc.devRef .tc main_arg13) = arg m c main_arg13 :=
  (W4_of_ne m ρ c main_arg13 (by decide)).trans (at3_arg13 m ρ c)
theorem at5_arg13 : W5 m ρ c (Proc.devRef .tc main_arg13) = arg m c main_arg13 := by
  show StableHlo.after hostOps2 (W4 m ρ c) (Proc.devRef .tc main_arg13) = _
  after_results_simp
  exact at4_arg13 m ρ c
theorem at6_arg13 : W6 m ρ c (Proc.devRef .tc main_arg13) = arg m c main_arg13 :=
  (W6_of_ne m ρ c main_arg13 (by decide)).trans (at5_arg13 m ρ c)

theorem at1_arg14 : W1 m ρ c (Proc.devRef .tc main_arg14) = arg m c main_arg14 := by
  show StableHlo.after hostOps0 (W0 m ρ c) (Proc.devRef .tc main_arg14) = _
  after_results_simp <;> rfl
theorem at2_arg14 : W2 m ρ c (Proc.devRef .tc main_arg14) = arg m c main_arg14 :=
  (W2_of_ne m ρ c main_arg14 (by decide)).trans (at1_arg14 m ρ c)
theorem at3_arg14 : W3 m ρ c (Proc.devRef .tc main_arg14) = arg m c main_arg14 := by
  show StableHlo.after hostOps1 (W2 m ρ c) (Proc.devRef .tc main_arg14) = _
  after_results_simp
  exact at2_arg14 m ρ c
theorem at4_arg14 : W4 m ρ c (Proc.devRef .tc main_arg14) = arg m c main_arg14 :=
  (W4_of_ne m ρ c main_arg14 (by decide)).trans (at3_arg14 m ρ c)
theorem at5_arg14 : W5 m ρ c (Proc.devRef .tc main_arg14) = arg m c main_arg14 := by
  show StableHlo.after hostOps2 (W4 m ρ c) (Proc.devRef .tc main_arg14) = _
  after_results_simp
  exact at4_arg14 m ρ c
theorem at6_arg14 : W6 m ρ c (Proc.devRef .tc main_arg14) = arg m c main_arg14 :=
  (W6_of_ne m ρ c main_arg14 (by decide)).trans (at5_arg14 m ρ c)

theorem at1_arg15 : W1 m ρ c (Proc.devRef .tc main_arg15) = arg m c main_arg15 := by
  show StableHlo.after hostOps0 (W0 m ρ c) (Proc.devRef .tc main_arg15) = _
  after_results_simp <;> rfl
theorem at2_arg15 : W2 m ρ c (Proc.devRef .tc main_arg15) = arg m c main_arg15 :=
  (W2_of_ne m ρ c main_arg15 (by decide)).trans (at1_arg15 m ρ c)
theorem at3_arg15 : W3 m ρ c (Proc.devRef .tc main_arg15) = arg m c main_arg15 := by
  show StableHlo.after hostOps1 (W2 m ρ c) (Proc.devRef .tc main_arg15) = _
  after_results_simp
  exact at2_arg15 m ρ c
theorem at4_arg15 : W4 m ρ c (Proc.devRef .tc main_arg15) = arg m c main_arg15 :=
  (W4_of_ne m ρ c main_arg15 (by decide)).trans (at3_arg15 m ρ c)
theorem at5_arg15 : W5 m ρ c (Proc.devRef .tc main_arg15) = arg m c main_arg15 := by
  show StableHlo.after hostOps2 (W4 m ρ c) (Proc.devRef .tc main_arg15) = _
  after_results_simp
  exact at4_arg15 m ρ c
theorem at6_arg15 : W6 m ρ c (Proc.devRef .tc main_arg15) = arg m c main_arg15 :=
  (W6_of_ne m ρ c main_arg15 (by decide)).trans (at5_arg15 m ρ c)

end Cert.KernelIdeal.Boundary

end
-- ==== Proof.HostRows.lean ====
/-
  Small layout facts of the kernel's host glue, read at an index.

  The host passes each bias to a region as one row: a row of the stacked biases sliced out, flattened and given a unit
  leading axis; or a bias vector given a unit leading axis. Read in column j, such a row is the bias's entry j. The
  scores come back as the first and the second half of the rows of one column.
-/
import proofs.«145613_j3590592659701_1_alg».proof.KernelIdeal
import Idealize.ShloMosaic.Lib.Pipeline.Value
import Idealize.ShloMosaic.Lib.ValueIdx

noncomputable section

namespace Cert.KernelIdeal.Rows

open Cert.KernelIdeal Idealize.ShloMosaic Idealize.ShloMosaic.ValueIdx

variable {α : Type}

/-- A vector of 128 entries given a unit leading axis reads, in column j of its one row, the vector's entry j. -/
theorem row_of_vec (v : S128.Idx → α) (h : S128.ShapeCasts S1x128) (j : Fin 128) :
    shapeCast S1x128 v h (ix2 (0 : Fin 1) j) = v (ix1 j) := by
  refine shapeCast_apply v h _ _ ?_
  rewrite [Shape.rowMajor_val_two, Shape.rowMajor_val_one]
  show j.val = 0 * 128 + j.val
  omega

/-- A one-entry vector given a unit leading axis reads that entry. -/
theorem cell_of_vec (v : S1.Idx → α) (h : S1.ShapeCasts S1x1) :
    shapeCast S1x1 v h (ix2 (0 : Fin 1) (0 : Fin 1)) = v (ix1 (0 : Fin 1)) := by
  refine shapeCast_apply v h _ _ ?_
  rewrite [Shape.rowMajor_val_two, Shape.rowMajor_val_one]
  rfl

/-- One row flattened reads, at position j, the row's column j. -/
theorem vec_of_row (x : S1x128.Idx → α) (h : S1x128.ShapeCasts S128) (j : Fin 128) :
    shapeCast S128 x h (ix1 j) = x (ix2 (0 : Fin 1) j) := by
  refine shapeCast_apply x h _ _ ?_
  rewrite [Shape.rowMajor_val_two, Shape.rowMajor_val_one]
  show 0 * 128 + j.val = j.val
  omega

/-- Row `l` of the three stacked biases, sliced out, flattened and given a unit leading axis again, reads in column j
    the stacked array's entry (l, j). -/
theorem bias_row (x : S3x128.Idx → α) (l : Fin 3) (h : S3x128.Slices ![l.val, 0] S1x128)
    (h₁ : S1x128.ShapeCasts S128) (h₂ : S128.ShapeCasts S1x128) (j : Fin 128) :
    shapeCast S1x128 (shapeCast S128 (extractStridedSlice S1x128 ![l.val, 0] x h) h₁) h₂
      (ix2 (0 : Fin 1) j) = x (ix2 l j) := by
  rw [row_of_vec, vec_of_row]
  refine extractStridedSlice_apply ![l.val, 0] x h _ _ (fun a => ?_)
  match a with
  | ⟨0, _⟩ => show l.val = l.val + 0; omega
  | ⟨1, _⟩ => show j.val = 0 + j.val; omega

/-- The first half of the rows of the one-column score array. -/
theorem first_half (x : S200000x1.Idx → α) (h : S200000x1.Slices ![0, 0] S100000x1) (i : S100000x1.Idx) :
    extractStridedSlice S100000x1 ![0, 0] x h i
      = x (ix2 (⟨(i 0).val, by have := idx2_lt0 i; omega⟩ : Fin 200000) (i 1)) := by
  refine extractStridedSlice_apply ![0, 0] x h _ _ (fun a => ?_)
  match a with
  | ⟨0, _⟩ => show (i 0).val = 0 + (i 0).val; omega
  | ⟨1, _⟩ => show (i 1).val = 0 + (i 1).val; omega

/-- The second half of the rows of the one-column score array. -/
theorem second_half (x : S200000x1.Idx → α) (h : S200000x1.Slices ![100000, 0] S100000x1) (i : S100000x1.Idx) :
    extractStridedSlice S100000x1 ![100000, 0] x h i
      = x (ix2 (⟨100000 + (i 0).val, by have := idx2_lt0 i; omega⟩ : Fin 200000) (i 1)) := by
  refine extractStridedSlice_apply ![100000, 0] x h _ _ (fun a => ?_)
  match a with
  | ⟨0, _⟩ => show 100000 + (i 0).val = 100000 + (i 0).val; rfl
  | ⟨1, _⟩ => show (i 1).val = 0 + (i 1).val; omega

/-- Two batches of 100000 rows stacked: a row of the first half is the first batch's row. -/
theorem stacked_first (x₁ x₂ : S100000x128.Idx → α) (h : Shape.Concatenates [S100000x128, S100000x128] S200000x128 0)
    (r : Fin 100000) (k : Fin 128) :
    concatenate S200000x128 0 [⟨S100000x128, x₁⟩, ⟨S100000x128, x₂⟩] h
      (ix2 (⟨r.val, by have := r.isLt; omega⟩ : Fin 200000) k) = x₁ (ix2 r k) := by
  refine concatenate_pair_apply_left (t := S200000x128) (0 : Fin 2) x₁ x₂ h _ rfl (ix2 r k) (fun b => ?_)
  match b with
  | ⟨0, _⟩ => rfl
  | ⟨1, _⟩ => rfl

/-- … and a row of the second half is the second batch's row. -/
theorem stacked_second (x₁ x₂ : S100000x128.Idx → α) (h : Shape.Concatenates [S100000x128, S100000x128] S200000x128 0)
    (r : Fin 100000) (k : Fin 128) :
    concatenate S200000x128 0 [⟨S100000x128, x₁⟩, ⟨S100000x128, x₂⟩] h
      (ix2 (⟨100000 + r.val, by have := r.isLt; omega⟩ : Fin 200000) k) = x₂ (ix2 r k) := by
  refine concatenate_pair_apply_right (t := S200000x128) (0 : Fin 2) x₁ x₂ h _ rfl rfl (ix2 r k) (fun b hb => ?_) ?_
  · match b with
    | ⟨0, _⟩ => exact absurd rfl hb
    | ⟨1, _⟩ => rfl
  · show r.val + 100000 = 100000 + r.val
    omega

end Cert.KernelIdeal.Rows

end
-- ==== Proof.DenseSpec.lean ====
/-
  The dense arithmetic of the network, entry by entry, over the extended reals.

  Both programs compute, between their shared gathers and scatter-adds, the same two things: a graph-convolution
  layer  h·W_self + agg·W_neigh + b  (followed, except in the last layer, by max(·, 0)), and an edge scorer
  max(max(e·W₁ + b₁, 0)·W₂ + b₂, 0)·W₃ + b₃.  One side evaluates them with matrix products over blocks of 5000 rows
  into a zero accumulator, the other with whole-array products; at exact arithmetic each entry is the same finite sum.
  This module names those entries, over literal shapes, so that both sides can be stated against one function.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- A matrix of extended reals with `r` rows and `c` columns, as an array of that literal shape. -/
abbrev Mat (r c : Nat) : Type := (⟨2, ![r, c]⟩ : Shape).Idx → EReal

/-- The float zero both programs compare against (the same word on both sides; it is never evaluated). -/
abbrev fzero : EReal := Ideal.ofBits .f32 0x00000000#32

/-- Entry (i, j) of the product of `x` (inner extent 128) with `w`: the sum over the 128 inner positions. -/
def rowDot {r c : Nat} (x : Mat r 128) (w : Mat 128 c) (i : Fin r) (j : Fin c) : EReal :=
  ∑ k : Fin 128, x (ix2 i k) * w (ix2 k j)

/-- Entry (i, j) of a graph-convolution layer before its nonlinearity: the node's own features through `ws`, plus
    its neighbourhood mean through `wn`, plus the bias of column j. -/
def conv {r : Nat} (h agg : Mat r 128) (ws wn : Mat 128 128) (b : Fin 128 → EReal) (i : Fin r) (j : Fin 128) : EReal :=
  rowDot h ws i j + rowDot agg wn i j + b j

/-- The same entry after max(·, 0). -/
def convRelu {r : Nat} (h agg : Mat r 128) (ws wn : Mat 128 128) (b : Fin 128 → EReal) (i : Fin r) (j : Fin 128) : EReal :=
  max (conv h agg ws wn b i j) fzero

/-- Entry (i, j) of one hidden step of the edge scorer: max(e·w + b, 0). -/
def hidden {r : Nat} (e : Mat r 128) (w : Mat 128 128) (b : Fin 128 → EReal) (i : Fin r) (j : Fin 128) : EReal :=
  max (rowDot e w i j + b j) fzero

/-- A hidden step as a whole matrix. -/
def hiddenMat {r : Nat} (e : Mat r 128) (w : Mat 128 128) (b : Fin 128 → EReal) : Mat r 128 :=
  fun z => hidden e w b (z 0) (z 1)

/-- The score of row i: two hidden steps, then a product with the one-column matrix `w3` plus the scalar bias. -/
def score {r : Nat} (e : Mat r 128) (w1 : Mat 128 128) (b1 : Fin 128 → EReal) (w2 : Mat 128 128) (b2 : Fin 128 → EReal)
    (w3 : Mat 128 1) (b3 : EReal) (i : Fin r) (j : Fin 1) : EReal :=
  rowDot (hiddenMat (hiddenMat e w1 b1) w2 b2) w3 i j + b3

/-- A product's entry in row i reads only row i of its left factor. -/
theorem rowDot_congr {r r' c : Nat} {x : Mat r 128} {x' : Mat r' 128} (w : Mat 128 c) {i : Fin r} {i' : Fin r'}
    (h : ∀ k : Fin 128, x (ix2 i k) = x' (ix2 i' k)) (j : Fin c) : rowDot x w i j = rowDot x' w i' j := by
  unfold rowDot
  exact Finset.sum_congr rfl fun k _ => by rw [h k]

/-- A score in row i reads only row i of the edge features: equal rows give equal scores, whatever the two arrays'
    other rows (and numbers of rows) are. This is what lets one batch of concatenated rows stand for two batches. -/
theorem score_congr {r r' : Nat} {e : Mat r 128} {e' : Mat r' 128} (w1 : Mat 128 128) (b1 : Fin 128 → EReal)
    (w2 : Mat 128 128) (b2 : Fin 128 → EReal) (w3 : Mat 128 1) (b3 : EReal) {i : Fin r} {i' : Fin r'}
    (h : ∀ k : Fin 128, e (ix2 i k) = e' (ix2 i' k)) (j : Fin 1) :
    score e w1 b1 w2 b2 w3 b3 i j = score e' w1 b1 w2 b2 w3 b3 i' j := by
  unfold score
  refine congrArg (· + b3) (rowDot_congr w3 (fun k => ?_) j)
  show hidden (hiddenMat e w1 b1) w2 b2 i k = hidden (hiddenMat e' w1 b1) w2 b2 i' k
  unfold hidden
  refine congrArg (fun t => max (t + b2 k) fzero) (rowDot_congr w2 (fun k' => ?_) k)
  show hidden e w1 b1 i k' = hidden e' w1 b1 i' k'
  unfold hidden
  rw [rowDot_congr w1 h k']

end Cert.Dense

end
-- ==== Proof.RefStages.lean ====
/-
  The reference program's dense stages, read at one index, are the specification's entries.

  Each graph-convolution layer of the reference is two whole-array products (the node features through the layer's
  "self" weights, the neighbourhood mean through its "neighbour" weights), their sum, a bias row broadcast over the
  rows, and (for the first two layers) a maximum with zero.  Read at an index (i, j) this is
  ∑ₖ h(i,k)·W_self(k,j) + ∑ₖ agg(i,k)·W_neigh(k,j) + b(j), which is the specification's `conv` (or `convRelu`).
  The edge scorer is three such products with biases and two maxima in between, which is the specification's `score`.
  The only work is to identify the index functions the stage-by-stage reading composes with coordinates (i, k), (k, j).
-/
import proofs.«145613_j3590592659701_1_alg».proof.Proof.Gen.ReferenceIdeal.Read
import proofs.«145613_j3590592659701_1_alg».proof.Proof.DenseSpec

noncomputable section

namespace Cert.ReferenceIdeal.Stages

open Cert.ReferenceIdeal Cert.ReferenceIdeal.Read Cert.Dense Idealize.ShloMosaic Idealize.ShloMosaic.ValueIdx

/-- Layer 0 after its maximum with zero, at (i 0, i 1): the input features through the first weight slices. -/
theorem layer0 (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x10 x11 : (⟨S600000, .i32⟩ : BufTy).Contents (Elt Ideal)) (i : S50000x128.Idx) :
    val_main_v31 (F := Ideal) x0 x1 x2 x3 x10 x11 i
      = convRelu x0 (val_main_v18 (F := Ideal) x0 x10 x11) (val_main_v20 (F := Ideal) x1) (val_main_v23 (F := Ideal) x2)
          (fun j => x3 (ix2 (0 : Fin 3) j)) (i 0) (i 1) := by
  have hl1 : ∀ k : Fin 128, lidx_main_v21 i k = ix2 (i 0) k := fun k =>
    funext fun a => Fin.ext (by match a with | ⟨0, _⟩ => rfl | ⟨1, _⟩ => rfl)
  have hr1 : ∀ k : Fin 128, ridx_main_v21 i k = ix2 k (i 1) := fun k =>
    funext fun a => Fin.ext (by match a with | ⟨0, _⟩ => rfl | ⟨1, _⟩ => rfl)
  have hl2 : ∀ k : Fin 128, lidx_main_v24 i k = ix2 (i 0) k := fun k =>
    funext fun a => Fin.ext (by match a with | ⟨0, _⟩ => rfl | ⟨1, _⟩ => rfl)
  have hr2 : ∀ k : Fin 128, ridx_main_v24 i k = ix2 k (i 1) := fun k =>
    funext fun a => Fin.ext (by match a with | ⟨0, _⟩ => rfl | ⟨1, _⟩ => rfl)
  have hb : idx_main_v26 (idx_main_v27 (idx_main_v28 (idx_main_v29 i))) = ix2 (0 : Fin 3) (i 1) :=
    funext fun a => Fin.ext (by
      match a with
      | ⟨0, _⟩ => rfl
      | ⟨1, _⟩ => exact Nat.mod_eq_of_lt (i 1).isLt)
  rw [val_main_v31_apply, val_main_v30_apply, val_main_v25_apply, val_main_v21_apply, val_main_v24_apply, val_main_v29_apply, val_main_v28_apply, val_main_v27_apply, val_main_v26_apply, val_main_call0_v0_apply, val_main_call0_cst_apply]
  simp only [hl1, hr1, hl2, hr2, hb]
  rfl

/-- Layer 1 after its maximum with zero, at (i 0, i 1): layer 0's output through the second weight slices. -/
theorem layer1 (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x10 x11 : (⟨S600000, .i32⟩ : BufTy).Contents (Elt Ideal)) (i : S50000x128.Idx) :
    val_main_v56 (F := Ideal) x0 x1 x2 x3 x10 x11 i
      = convRelu (val_main_v31 (F := Ideal) x0 x1 x2 x3 x10 x11) (val_main_v43 (F := Ideal) x0 x1 x2 x3 x10 x11) (val_main_v45 (F := Ideal) x1) (val_main_v48 (F := Ideal) x2)
          (fun j => x3 (ix2 (1 : Fin 3) j)) (i 0) (i 1) := by
  have hl1 : ∀ k : Fin 128, lidx_main_v46 i k = ix2 (i 0) k := fun k =>
    funext fun a => Fin.ext (by match a with | ⟨0, _⟩ => rfl | ⟨1, _⟩ => rfl)
  have hr1 : ∀ k : Fin 128, ridx_main_v46 i k = ix2 k (i 1) := fun k =>
    funext fun a => Fin.ext (by match a with | ⟨0, _⟩ => rfl | ⟨1, _⟩ => rfl)
  have hl2 : ∀ k : Fin 128, lidx_main_v49 i k = ix2 (i 0) k := fun k =>
    funext fun a => Fin.ext (by match a with | ⟨0, _⟩ => rfl | ⟨1, _⟩ => rfl)
  have hr2 : ∀ k : Fin 128, ridx_main_v49 i k = ix2 k (i 1) := fun k =>
    funext fun a => Fin.ext (by match a with | ⟨0, _⟩ => rfl | ⟨1, _⟩ => rfl)
  have hb : idx_main_v51 (idx_main_v52 (idx_main_v53 (idx_main_v54 i))) = ix2 (1 : Fin 3) (i 1) :=
    funext fun a => Fin.ext (by
      match a with
      | ⟨0, _⟩ => rfl
      | ⟨1, _⟩ => exact Nat.mod_eq_of_lt (i 1).isLt)
  rw [val_main_v56_apply, val_main_v55_apply, val_main_v50_apply, val_main_v46_apply, val_main_v49_apply, val_main_v54_apply, val_main_v53_apply, val_main_v52_apply, val_main_v51_apply, val_main_call1_v0_apply, val_main_call1_cst_apply]
  simp only [hl1, hr1, hl2, hr2, hb]
  rfl

/-- Layer 2 (no maximum), at (i 0, i 1): layer 1's output through the third weight slices. -/
theorem layer2 (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x10 x11 : (⟨S600000, .i32⟩ : BufTy).Contents (Elt Ideal)) (i : S50000x128.Idx) :
    val_main_v80 (F := Ideal) x0 x1 x2 x3 x10 x11 i
      = conv (val_main_v56 (F := Ideal) x0 x1 x2 x3 x10 x11) (val_main_v68 (F := Ideal) x0 x1 x2 x3 x10 x11) (val_main_v70 (F := Ideal) x1) (val_main_v73 (F := Ideal) x2)
          (fun j => x3 (ix2 (2 : Fin 3) j)) (i 0) (i 1) := by
  have hl1 : ∀ k : Fin 128, lidx_main_v71 i k = ix2 (i 0) k := fun k =>
    funext fun a => Fin.ext (by match a with | ⟨0, _⟩ => rfl | ⟨1, _⟩ => rfl)
  have hr1 : ∀ k : Fin 128, ridx_main_v71 i k = ix2 k (i 1) := fun k =>
    funext fun a => Fin.ext (by match a with | ⟨0, _⟩ => rfl | ⟨1, _⟩ => rfl)
  have hl2 : ∀ k : Fin 128, lidx_main_v74 i k = ix2 (i 0) k := fun k =>
    funext fun a => Fin.ext (by match a with | ⟨0, _⟩ => rfl | ⟨1, _⟩ => rfl)
  have hr2 : ∀ k : Fin 128, ridx_main_v74 i k = ix2 k (i 1) := fun k =>
    funext fun a => Fin.ext (by match a with | ⟨0, _⟩ => rfl | ⟨1, _⟩ => rfl)
  have hb : idx_main_v76 (idx_main_v77 (idx_main_v78 (idx_main_v79 i))) = ix2 (2 : Fin 3) (i 1) :=
    funext fun a => Fin.ext (by
      match a with
      | ⟨0, _⟩ => rfl
      | ⟨1, _⟩ => exact Nat.mod_eq_of_lt (i 1).isLt)
  rw [val_main_v80_apply, val_main_v75_apply, val_main_v71_apply, val_main_v74_apply, val_main_v79_apply, val_main_v78_apply, val_main_v77_apply, val_main_v76_apply]
  simp only [hl1, hr1, hl2, hr2, hb]
  rfl

/-- The first hidden step of the scorer on the positive edges, as a whole array: max(e·W₁ + b₁, 0). -/
theorem hidden1Pos (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x4 : (⟨S128x128, .f32⟩ : BufTy).Contents (Elt Ideal)) (x5 : (⟨S128, .f32⟩ : BufTy).Contents (Elt Ideal))
    (x10 x11 : (⟨S600000, .i32⟩ : BufTy).Contents (Elt Ideal)) (x12 x13 : (⟨S100000, .i32⟩ : BufTy).Contents (Elt Ideal)) :
    val_main_v100 (F := Ideal) x0 x1 x2 x3 x4 x5 x10 x11 x12 x13
      = hiddenMat (val_main_v95 (F := Ideal) x0 x1 x2 x3 x10 x11 x12 x13) x4 (fun j => x5 (ix1 j)) := by
  funext z
  have hl : ∀ k : Fin 128, lidx_main_v96 z k = ix2 (z 0) k := fun k =>
    funext fun a => Fin.ext (by match a with | ⟨0, _⟩ => rfl | ⟨1, _⟩ => rfl)
  have hr : ∀ k : Fin 128, ridx_main_v96 z k = ix2 k (z 1) := fun k =>
    funext fun a => Fin.ext (by match a with | ⟨0, _⟩ => rfl | ⟨1, _⟩ => rfl)
  have hb : idx_main_v97 (idx_main_v98 z) = ix1 (z 1) :=
    funext fun a => Fin.ext (by match a with | ⟨0, _⟩ => rfl)
  rw [val_main_v100_apply, val_main_v99_apply, val_main_v96_apply, val_main_v98_apply, val_main_v97_apply,
    val_main_call2_v0_apply, val_main_call2_cst_apply]
  simp only [hl, hr, hb]
  rfl

/-- The second hidden step of the scorer on the positive edges, as a whole array: max(h₁·W₂ + b₂, 0). -/
theorem hidden2Pos (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 x11 : (⟨S600000, .i32⟩ : BufTy).Contents (Elt Ideal)) (x12 x13 : (⟨S100000, .i32⟩ : BufTy).Contents (Elt Ideal)) :
    val_main_v105 (F := Ideal) x0 x1 x2 x3 x4 x5 x6 x7 x10 x11 x12 x13
      = hiddenMat (hiddenMat (val_main_v95 (F := Ideal) x0 x1 x2 x3 x10 x11 x12 x13) x4 (fun j => x5 (ix1 j))) x6 (fun j => x7 (ix1 j)) := by
  funext z
  have hl : ∀ k : Fin 128, lidx_main_v101 z k = ix2 (z 0) k := fun k =>
    funext fun a => Fin.ext (by match a with | ⟨0, _⟩ => rfl | ⟨1, _⟩ => rfl)
  have hr : ∀ k : Fin 128, ridx_main_v101 z k = ix2 k (z 1) := fun k =>
    funext fun a => Fin.ext (by match a with | ⟨0, _⟩ => rfl | ⟨1, _⟩ => rfl)
  have hb : idx_main_v102 (idx_main_v103 z) = ix1 (z 1) :=
    funext fun a => Fin.ext (by match a with | ⟨0, _⟩ => rfl)
  rw [val_main_v105_apply, val_main_v104_apply, val_main_v101_apply, val_main_v103_apply, val_main_v102_apply,
    val_main_call3_v0_apply, val_main_call3_cst_apply, hidden1Pos]
  simp only [hl, hr, hb]
  rfl

/-- The score of the positive edges at (i 0, i 1): the second hidden array times the one-column W₃, plus the scalar bias. -/
theorem scorePos (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal))
    (x10 x11 : (⟨S600000, .i32⟩ : BufTy).Contents (Elt Ideal)) (x12 x13 : (⟨S100000, .i32⟩ : BufTy).Contents (Elt Ideal)) (i : S100000x1.Idx) :
    val_main_v109 (F := Ideal) x0 x1 x2 x3 x4 x5 x6 x7 x8 x9 x10 x11 x12 x13 i
      = score (val_main_v95 (F := Ideal) x0 x1 x2 x3 x10 x11 x12 x13) x4 (fun j => x5 (ix1 j)) x6 (fun j => x7 (ix1 j)) x8 (x9 (ix1 (0 : Fin 1))) (i 0) (i 1) := by
  have hl : ∀ k : Fin 128, lidx_main_v106 i k = ix2 (i 0) k := fun k =>
    funext fun a => Fin.ext (by match a with | ⟨0, _⟩ => rfl | ⟨1, _⟩ => rfl)
  have hr : ∀ k : Fin 128, ridx_main_v106 i k = ix2 k (i 1) := fun k =>
    funext fun a => Fin.ext (by match a with | ⟨0, _⟩ => rfl | ⟨1, _⟩ => rfl)
  have hb : idx_main_v107 (idx_main_v108 i) = ix1 (0 : Fin 1) :=
    funext fun a => Fin.ext (by match a with | ⟨0, _⟩ => rfl)
  rw [val_main_v109_apply, val_main_v106_apply, val_main_v108_apply, val_main_v107_apply, hidden2Pos]
  simp only [hl, hr, hb]
  rfl

/-- The first hidden step of the scorer on the negative edges, as a whole array: max(e·W₁ + b₁, 0). -/
theorem hidden1Neg (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x4 : (⟨S128x128, .f32⟩ : BufTy).Contents (Elt Ideal)) (x5 : (⟨S128, .f32⟩ : BufTy).Contents (Elt Ideal))
    (x10 x11 : (⟨S600000, .i32⟩ : BufTy).Contents (Elt Ideal)) (x14 x15 : (⟨S100000, .i32⟩ : BufTy).Contents (Elt Ideal)) :
    val_main_v129 (F := Ideal) x0 x1 x2 x3 x4 x5 x10 x11 x14 x15
      = hiddenMat (val_main_v124 (F := Ideal) x0 x1 x2 x3 x10 x11 x14 x15) x4 (fun j => x5 (ix1 j)) := by
  funext z
  have hl : ∀ k : Fin 128, lidx_main_v125 z k = ix2 (z 0) k := fun k =>
    funext fun a => Fin.ext (by match a with | ⟨0, _⟩ => rfl | ⟨1, _⟩ => rfl)
  have hr : ∀ k : Fin 128, ridx_main_v125 z k = ix2 k (z 1) := fun k =>
    funext fun a => Fin.ext (by match a with | ⟨0, _⟩ => rfl | ⟨1, _⟩ => rfl)
  have hb : idx_main_v126 (idx_main_v127 z) = ix1 (z 1) :=
    funext fun a => Fin.ext (by match a with | ⟨0, _⟩ => rfl)
  rw [val_main_v129_apply, val_main_v128_apply, val_main_v125_apply, val_main_v127_apply, val_main_v126_apply,
    val_main_call4_v0_apply, val_main_call4_cst_apply]
  simp only [hl, hr, hb]
  rfl

/-- The second hidden step of the scorer on the negative edges, as a whole array: max(h₁·W₂ + b₂, 0). -/
theorem hidden2Neg (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 x11 : (⟨S600000, .i32⟩ : BufTy).Contents (Elt Ideal)) (x14 x15 : (⟨S100000, .i32⟩ : BufTy).Contents (Elt Ideal)) :
    val_main_v134 (F := Ideal) x0 x1 x2 x3 x4 x5 x6 x7 x10 x11 x14 x15
      = hiddenMat (hiddenMat (val_main_v124 (F := Ideal) x0 x1 x2 x3 x10 x11 x14 x15) x4 (fun j => x5 (ix1 j))) x6 (fun j => x7 (ix1 j)) := by
  funext z
  have hl : ∀ k : Fin 128, lidx_main_v130 z k = ix2 (z 0) k := fun k =>
    funext fun a => Fin.ext (by match a with | ⟨0, _⟩ => rfl | ⟨1, _⟩ => rfl)
  have hr : ∀ k : Fin 128, ridx_main_v130 z k = ix2 k (z 1) := fun k =>
    funext fun a => Fin.ext (by match a with | ⟨0, _⟩ => rfl | ⟨1, _⟩ => rfl)
  have hb : idx_main_v131 (idx_main_v132 z) = ix1 (z 1) :=
    funext fun a => Fin.ext (by match a with | ⟨0, _⟩ => rfl)
  rw [val_main_v134_apply, val_main_v133_apply, val_main_v130_apply, val_main_v132_apply, val_main_v131_apply,
    val_main_call5_v0_apply, val_main_call5_cst_apply, hidden1Neg]
  simp only [hl, hr, hb]
  rfl

/-- The score of the negative edges at (i 0, i 1): the second hidden array times the one-column W₃, plus the scalar bias. -/
theorem scoreNeg (x0 : (⟨S50000x128, .f32⟩ : BufTy).Contents (Elt Ideal)) (x1 x2 : (⟨S3x128x128, .f32⟩ : BufTy).Contents (Elt Ideal))
    (x3 : (⟨S3x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal))
    (x10 x11 : (⟨S600000, .i32⟩ : BufTy).Contents (Elt Ideal)) (x14 x15 : (⟨S100000, .i32⟩ : BufTy).Contents (Elt Ideal)) (i : S100000x1.Idx) :
    val_main_v138 (F := Ideal) x0 x1 x2 x3 x4 x5 x6 x7 x8 x9 x10 x11 x14 x15 i
      = score (val_main_v124 (F := Ideal) x0 x1 x2 x3 x10 x11 x14 x15) x4 (fun j => x5 (ix1 j)) x6 (fun j => x7 (ix1 j)) x8 (x9 (ix1 (0 : Fin 1))) (i 0) (i 1) := by
  have hl : ∀ k : Fin 128, lidx_main_v135 i k = ix2 (i 0) k := fun k =>
    funext fun a => Fin.ext (by match a with | ⟨0, _⟩ => rfl | ⟨1, _⟩ => rfl)
  have hr : ∀ k : Fin 128, ridx_main_v135 i k = ix2 k (i 1) := fun k =>
    funext fun a => Fin.ext (by match a with | ⟨0, _⟩ => rfl | ⟨1, _⟩ => rfl)
  have hb : idx_main_v136 (idx_main_v137 i) = ix1 (0 : Fin 1) :=
    funext fun a => Fin.ext (by match a with | ⟨0, _⟩ => rfl)
  rw [val_main_v138_apply, val_main_v135_apply, val_main_v137_apply, val_main_v136_apply, hidden2Neg]
  simp only [hl, hr, hb]
  rfl

end Cert.ReferenceIdeal.Stages

end
-- ==== Proof.RegionConv.lean ====
/-
  The three graph-convolution regions of the idealized kernel, read as whole arrays.

  Each region runs over ten row blocks of 5000 rows. At a block it computes, with two matrix products into a zero
  accumulator, h·W_self + agg·W_neigh + b for the block's rows (followed in the first two layers by max(·, 0)) and
  writes the block back. At exact arithmetic a product into the zero accumulator is, entry by entry, the finite sum
  over the 128 inner positions, and the changes of number format are the identity; so each block written back is the
  rows of one function of the arrays the region found at its entry, and the ten blocks tile the output array. This
  module states, per region, that the output array after the region is that function: the specification's layer entry.
-/
import proofs.«145613_j3590592659701_1_alg».proof.Proof.Gen.KernelIdeal.Frame
import proofs.«145613_j3590592659701_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Cert.Dense
open Idealize.ShloMosaic Idealize.ShloMosaic.TcCoe Idealize.ShloMosaic.ValueIdx Idealize.SL.Sem
open Idealize.ShloMosaic.Pipeline (Dat)

local notation "dotK" => dot_S5000x128_S128x128_S5000x128_1_0_0_1_n_n

/-- The left factor of a block product is read in the output's row … -/
theorem dot_lhs_0 (i : S5000x128.Idx) (z : (dotK).contr.Idx) : ((dotK).lhsIdx i z 0).val = (i 0).val := by
  unfold DotDims.lhsIdx
  rw [dif_neg (show ¬(0 : Fin S5000x128.rank) ∈ (dotK).lhsBatch by decide),
    dif_pos (show (0 : Fin S5000x128.rank) ∈ (dotK).lhsNonContracting by decide)]
  rfl
/-- … at the inner position; -/
theorem dot_lhs_1 (i : S5000x128.Idx) (z : (dotK).contr.Idx) : ((dotK).lhsIdx i z 1).val = (z ⟨0, by decide⟩).val :=
  (dotK).lhsIdx_val_of_single rfl i z
/-- the right factor at the inner position … -/
theorem dot_rhs_0 (i : S5000x128.Idx) (z : (dotK).contr.Idx) : ((dotK).rhsIdx i z 0).val = (z ⟨0, by decide⟩).val :=
  (dotK).rhsIdx_val_of_single rfl i z
/-- … in the output's column. -/
theorem dot_rhs_1 (i : S5000x128.Idx) (z : (dotK).contr.Idx) : ((dotK).rhsIdx i z 1).val = (i 1).val := by
  unfold DotDims.rhsIdx
  rw [dif_neg (show ¬(1 : Fin S128x128.rank) ∈ (dotK).rhsBatch by decide),
    dif_pos (show (1 : Fin S128x128.rank) ∈ (dotK).rhsNonContracting by decide)]
  rfl

/-- A matrix product into the zero accumulator, read at row p and column q, is the sum over the 128 inner
    positions of the products of the left factor's row p with the right factor's column q. -/
theorem matmul_zero_apply {φ₁ φ₂ : FTy} (x : FVec Ideal S5000x128 φ₁) (w : FVec Ideal S128x128 φ₂) (p : Fin 5000) (q : Fin 128) :
    matmul (F := Ideal) (dotK) none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 (dotK) 128 rfl rfl).symm]
  refine Finset.sum_congr rfl fun k _ => ?_
  have hk := ValueIdx.contrEquiv1_symm_val (dotK) 128 rfl rfl k
  have el : (dotK).lhsIdx (ix2 p q) ((ValueIdx.contrEquiv1 (dotK) 128 rfl rfl).symm k) = ix2 p k :=
    funext fun a => Fin.ext (by
      match a with
      | ⟨0, _⟩ => exact dot_lhs_0 _ _
      | ⟨1, _⟩ => exact (dot_lhs_1 _ _).trans hk)
  have er : (dotK).rhsIdx (ix2 p q) ((ValueIdx.contrEquiv1 (dotK) 128 rfl rfl).symm k) = ix2 k q :=
    funext fun a => Fin.ext (by
      match a with
      | ⟨0, _⟩ => exact (dot_rhs_0 _ _).trans hk
      | ⟨1, _⟩ => exact dot_rhs_1 _ _)
  rw [el, er]

/-- The bias row, broadcast over the 5000 rows of a block, read at (p, q) is the bias of column q. -/
theorem bias_apply (b : Vec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) fun a => ?_
  match a with
  | ⟨0, _⟩ => rfl
  | ⟨1, _⟩ => rfl

/-- The first layer's block arithmetic at row p and column q: the two products' entries plus the bias of column q,
    then the maximum with zero. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (rowDot x0 x2 p q + rowDot x1 x3 p q + x4 (ix2 (0 : Fin 1) q)) fzero := by
  unfold k0_pay1
  simp only [shapeCast_self]
  rw [maximumf_apply, addf_apply, addf_apply, broadcast_apply, matmul_zero_apply, matmul_zero_apply, bias_apply]
  rfl

/-- The second layer's block arithmetic at row p and column q: the same entry. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max (rowDot x0 x2 p q + rowDot x1 x3 p q + x4 (ix2 (0 : Fin 1) q)) fzero := by
  unfold k1_pay1
  simp only [shapeCast_self]
  rw [maximumf_apply, addf_apply, addf_apply, broadcast_apply, matmul_zero_apply, matmul_zero_apply, bias_apply]
  rfl

/-- The last layer's block arithmetic at row p and column q: the two products' entries plus the bias of column q,
    with no maximum after it. -/
theorem pay2_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = rowDot x0 x2 p q + rowDot x1 x3 p q + x4 (ix2 (0 : Fin 1) q) := by
  unfold k2_pay1
  simp only [shapeCast_self]
  rw [addf_apply, addf_apply, matmul_zero_apply, matmul_zero_apply, bias_apply]
  rfl

/-- A block's layer entry from the whole arrays: when row p of the two row blocks is row r of the node arrays,
    the weight blocks are the weight arrays and the bias block's column q is the bias of column q', q = q', the
    block arithmetic's value is the layer's entry (r, q') before the maximum, -/
theorem conv_of_rows {x0 x1 : Vec Ideal S5000x128 .f32} {x2 x3 : Vec Ideal S128x128 .f32} {x4 : Vec Ideal S1x128 .f32}
    (h agg : Mat 50000 128) (ws wn : Mat 128 128) (b : Fin 128 → EReal) (p : Fin 5000) (q : Fin 128) (r : Fin 50000) (q' : Fin 128)
    (h0 : ∀ k : Fin 128, x0 (ix2 p k) = h (ix2 r k)) (h1 : ∀ k : Fin 128, x1 (ix2 p k) = agg (ix2 r k))
    (h2 : x2 = ws) (h3 : x3 = wn) (h4 : x4 (ix2 (0 : Fin 1) q) = b q') (hq : q = q') :
    rowDot x0 x2 p q + rowDot x1 x3 p q + x4 (ix2 (0 : Fin 1) q) = conv h agg ws wn b r q' := by
  subst hq h2 h3
  unfold conv
  rw [rowDot_congr x2 h0 q, rowDot_congr x3 h1 q, h4]

/-- and after it. -/
theorem convRelu_of_rows {x0 x1 : Vec Ideal S5000x128 .f32} {x2 x3 : Vec Ideal S128x128 .f32} {x4 : Vec Ideal S1x128 .f32}
    (h agg : Mat 50000 128) (ws wn : Mat 128 128) (b : Fin 128 → EReal) (p : Fin 5000) (q : Fin 128) (r : Fin 50000) (q' : Fin 128)
    (h0 : ∀ k : Fin 128, x0 (ix2 p k) = h (ix2 r k)) (h1 : ∀ k : Fin 128, x1 (ix2 p k) = agg (ix2 r k))
    (h2 : x2 = ws) (h3 : x3 = wn) (h4 : x4 (ix2 (0 : Fin 1) q) = b q') (hq : q = q') :
    max (rowDot x0 x2 p q + rowDot x1 x3 p q + x4 (ix2 (0 : Fin 1) q)) fzero = convRelu h agg ws wn b r q' := by
  unfold convRelu
  rw [conv_of_rows h agg ws wn b p q r q' h0 h1 h2 h3 h4 hq]

/-- The offsets (0, 0) of a whole-block access, as the constant function. -/
theorem hz : (![0, 0] : Fin 2 → Nat) = fun _ => 0 := funext fun a => by fin_cases a <;> rfl

variable (V : (c : Dev nD) → (b : Ref sig .tc) → Buf (Elt Ideal) ((c : Thread nD τ).loc b))

/-! ## The first layer -/

/-- The index maps over the ten grid points: the two row windows and the output window sit at row block t, the
    weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the node-feature block at point t is row 5000 t + p of the node features. -/
theorem blk0_0 (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e00, e01, -⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of the neighbourhood-mean block at point t is row 5000 t + p of the neighbourhood means. -/
theorem blk0_1 (c : Dev nD) (t : Fin cfg0.N) (p : Fin 5000) (k : Fin 128) (r : Fin 50000) (hr : r.val = t.val * 5000 + p.val) :
    (iblk0 V c 1 t : Vec Ideal S5000x128 .f32) (ix2 p k) = (V c main_v18 : S50000x128.Idx → EReal) (ix2 r k) := by
  obtain ⟨-, -, e10, e11, -⟩ := idx0 t
  show V c main_v18 (((cfg0.win 1).blk t).view.emb (ix2 p k)) = V c main_v18 (ix2 r k)
  refine congrArg (V c main_v18) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The self-weight block at every point is the whole self-weight matrix. -/
theorem blk0_2 (c : Dev nD) (t : Fin cfg0.N) :
    (iblk0 V c 2 t : Vec Ideal S128x128 .f32) = (V c main_v20 : S128x128.Idx → EReal) := by
  obtain ⟨-, -, -, -, e20, e21, -⟩ := idx0 t
  funext y
  show V c main_v20 (((cfg0.win 2).blk t).view.emb y) = V c main_v20 y
  refine congrArg (V c main_v20) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The neighbour-weight block at every point is the whole neighbour-weight matrix. -/
theorem blk0_3 (c : Dev nD) (t : Fin cfg0.N) :
    (iblk0 V c 3 t : Vec Ideal S128x128 .f32) = (V c main_v22 : S128x128.Idx → EReal) := by
  obtain ⟨-, -, -, -, -, -, e30, e31, -⟩ := idx0 t
  funext y
  show V c main_v22 (((cfg0.win 3).blk t).view.emb y) = V c main_v22 y
  refine congrArg (V c main_v22) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias block at every point is the whole bias row. -/
theorem blk0_4 (c : Dev nD) (t : Fin cfg0.N) (q : Fin 128) :
    (iblk0 V c 4 t : Vec Ideal S1x128 .f32) (ix2 (0 : Fin 1) q) = (V c main_v25 : S1x128.Idx → EReal) (ix2 (0 : Fin 1) q) := by
  obtain ⟨-, -, -, -, -, -, -, -, e40, e41, -⟩ := idx0 t
  show V c main_v25 (((cfg0.win 4).blk t).view.emb (ix2 (0 : Fin 1) q)) = V c main_v25 (ix2 (0 : Fin 1) q)
  refine congrArg (V c main_v25) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The first layer's output, entry by entry, from the arrays the region finds. -/
abbrev L0 (c : Dev nD) : S50000x128.Idx → EReal := fun i =>
  convRelu (V c main_arg0) (V c main_v18) (V c main_v20) (V c main_v22) (fun j => V c main_v25 (ix2 (0 : Fin 1) j)) (i 0) (i 1)

/-- What point t writes back is row block t of the layer's output. -/
theorem flushed0 (c : Dev nD) (t : Fin cfg0.N) :
    (dat0 (F := Ideal) V c).flushed 5 t = ((cfg0.win 5).blk t).view.read (Elt Ideal) (L0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = L0 V c (((cfg0.win 5).blk t).view.emb (ix2 p q))
  have hr : ((((cfg0.win 5).blk t).view.emb (ix2 p q)) 0).val = t.val * 5000 + p.val := by
    show win0_5.index t (0 : Fin 2) * 5000 + 1 * p.val = _; omega
  have hq : q = (((cfg0.win 5).blk t).view.emb (ix2 p q)) 1 := Fin.ext (by
    show q.val = win0_5.index t (1 : Fin 2) * 128 + 1 * q.val; omega)
  exact (pay0_apply (iblk0 V c 0 t) (iblk0 V c 1 t) (iblk0 V c 2 t) (iblk0 V c 3 t) (iblk0 V c 4 t) p q).trans
    (convRelu_of_rows (V c main_arg0) (V c main_v18) (V c main_v20) (V c main_v22) (fun j => V c main_v25 (ix2 (0 : Fin 1) j)) p q
      ((((cfg0.win 5).blk t).view.emb (ix2 p q)) 0) ((((cfg0.win 5).blk t).view.emb (ix2 p q)) 1)
      (fun k => blk0_0 V c t p k _ hr) (fun k => blk0_1 V c t p k _ hr) (blk0_2 V c t) (blk0_3 V c t)
      ((blk0_4 V c t q).trans (by rw [← hq])) hq)

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every row is in the block of the point its number divided by 5000 names. -/
theorem cover0 (i : S50000x128.Idx) :
    ∃ t : Fin cfg0.N, (cfg0.win 5).flush t = true ∧ i ∈ ((cfg0.win 5).blk t).view.set := by
  have hN : cfg0.N = 10 := N_0
  have h0 : (i 0).val < 50000 := idx2_lt0 i
  have h1 : (i 1).val < 128 := idx2_lt1 i
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := idx0 t
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE FIRST LAYER: after the region its output array holds, at every (row, column), the layer's entry
    max(h·W_self + agg·W_neigh + b, 0) of the arrays the region found. -/
theorem region0 (c : Dev nD) : (dat0 (F := Ideal) V c).arrAt 5 cfg0.N = fun i =>
    convRelu (V c main_arg0) (V c main_v18) (V c main_v20) (V c main_v22) (fun j => V c main_v25 (ix2 (0 : Fin 1) j)) (i 0) (i 1) :=
  (dat0 (F := Ideal) V c).arrAt_eq_of_cover 5 (L0 V c) (fun t _ => flushed0 V c t) cover0

/-! ## The second layer -/

/-- The index maps over the ten grid points: the two row windows and the output window sit at row block t, the
    weights and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the node-feature block at point t is row 5000 t + p of the node features. -/
theorem blk1_0 (c : Dev nD) (t : Fin cfg1.N) (p : Fin 5000) (k : Fin 128) (r : Fin 50000) (hr : r.val = t.val * 5000 + p.val) :
    (iblk1 V c 0 t : Vec Ideal S5000x128 .f32) (ix2 p k) = (V c main_v26 : S50000x128.Idx → EReal) (ix2 r k) := by
  obtain ⟨e00, e01, -⟩ := idx1 t
  show V c main_v26 (((cfg1.win 0).blk t).view.emb (ix2 p k)) = V c main_v26 (ix2 r k)
  refine congrArg (V c main_v26) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Row p of the neighbourhood-mean block at point t is row 5000 t + p of the neighbourhood means. -/
theorem blk1_1 (c : Dev nD) (t : Fin cfg1.N) (p : Fin 5000) (k : Fin 128) (r : Fin 50000) (hr : r.val = t.val * 5000 + p.val) :
    (iblk1 V c 1 t : Vec Ideal S5000x128 .f32) (ix2 p k) = (V c main_v38 : S50000x128.Idx → EReal) (ix2 r k) := by
  obtain ⟨-, -, e10, e11, -⟩ := idx1 t
  show V c main_v38 (((cfg1.win 1).blk t).view.emb (ix2 p k)) = V c main_v38 (ix2 r k)
  refine congrArg (V c main_v38) (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The self-weight block at every point is the whole self-weight matrix. -/
theorem blk1_2 (c : Dev nD) (t : Fin cfg1.N) :
    (iblk1 V c 2 t : Vec Ideal S128x128 .f32) = (V c main_v40 : S128x128.Idx → EReal) := by
  obtain ⟨-, -, -, -, e20, e21, -⟩ := idx1 t
  funext y
  show V c main_v40 (((cfg1.win 2).blk t).view.emb y) = V c main_v40 y
  refine congrArg (V c main_v40) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The neighbour-weight block at every point is the whole neighbour-weight matrix. -/
theorem blk1_3 (c : Dev nD) (t : Fin cfg1.N) :
    (iblk1 V c 3 t : Vec Ideal S128x128 .f32) = (V c main_v42 : S128x128.Idx → EReal) := by
  obtain ⟨-, -, -, -, -, -, e30, e31, -⟩ := idx1 t
  funext y
  show V c main_v42 (((cfg1.win 3).blk t).view.emb y) = V c main_v42 y
  refine congrArg (V c main_v42) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias block at every point is the whole bias row. -/
theorem blk1_4 (c : Dev nD) (t : Fin cfg1.N) (q : Fin 128) :
    (iblk1 V c 4 t : Vec Ideal S1x128 .f32) (ix2 (0 : Fin 1) q) = (V c main_v45 : S1x128.Idx → EReal) (ix2 (0 : Fin 1) q) := by
  obtain ⟨-, -, -, -, -, -, -, -, e40, e41, -⟩ := idx1 t
  show V c main_v45 (((cfg1.win 4).blk t).view.emb (ix2 (0 : Fin 1) q)) = V c main_v45 (ix2 (0 : Fin 1) q)
  refine congrArg (V c main_v45) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The second layer's output, entry by entry, from the arrays the region finds. -/
abbrev L1 (c : Dev nD) : S50000x128.Idx → EReal := fun i =>
  convRelu (V c main_v26) (V c main_v38) (V c main_v40) (V c main_v42) (fun j => V c main_v45 (ix2 (0 : Fin 1) j)) (i 0) (i 1)

/-- What point t writes back is row block t of the layer's output. -/
theorem flushed1 (c : Dev nD) (t : Fin cfg1.N) :
    (dat1 (F := Ideal) V c).flushed 5 t = ((cfg1.win 5).blk t).view.read (Elt Ideal) (L1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = L1 V c (((cfg1.win 5).blk t).view.emb (ix2 p q))
  have hr : ((((cfg1.win 5).blk t).view.emb (ix2 p q)) 0).val = t.val * 5000 + p.val := by
    show win1_5.index t (0 : Fin 2) * 5000 + 1 * p.val = _; omega
  have hq : q = (((cfg1.win 5).blk t).view.emb (ix2 p q)) 1 := Fin.ext (by
    show q.val = win1_5.index t (1 : Fin 2) * 128 + 1 * q.val; omega)
  exact (pay1_apply (iblk1 V c 0 t) (iblk1 V c 1 t) (iblk1 V c 2 t) (iblk1 V c 3 t) (iblk1 V c 4 t) p q).trans
    (convRelu_of_rows (V c main_v26) (V c main_v38) (V c main_v40) (V c main_v42) (fun j => V c main_v45 (ix2 (0 : Fin 1) j)) p q
      ((((cfg1.win 5).blk t).view.emb (ix2 p q)) 0) ((((cfg1.win 5).blk t).view.emb (ix2 p q)) 1)
      (fun k => blk1_0 V c t p k _ hr) (fun k => blk1_1 V c t p k _ hr) (blk1_2 V c t) (blk1_3 V c t)
      ((blk1_4 V c t q).trans (by rw [← hq])) hq)

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v46).slice (win1_5.rect t)).set ↔ _
  rw [View.set_slice_whole, Rect.mem_set_unit]
  exact Iff.rfl

/-- Every row is in the block of the point its number divided by 5000 names. -/
theorem cover1 (i : S50000x128.Idx) :
    ∃ t : Fin cfg1.N, (cfg1.win 5).flush t = true ∧ i ∈ ((cfg1.win 5).blk t).view.set := by
  have hN : cfg1.N = 10 := N_1
  have h0 : (i 0).val < 50000 := idx2_lt0 i
  have h1 : (i 1).val < 128 := idx2_lt1 i
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := idx1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE SECOND LAYER: after the region its output array holds, at every (row, column), the layer's entry
    max(h·W_self + agg·W_neigh + b, 0) of the arrays the region found. -/
theorem region1 (c : Dev nD) : (dat1 (F := Ideal) V c).arrAt 5 cfg1.N = fun i =>
    convRelu (V c main_v26) (V c main_v38) (V c main_v40) (V c main_v42) (fun j => V c main_v45 (ix2 (0 : Fin 1) j)) (i 0) (i 1) :=
  (dat1 (F := Ideal) V c).arrAt_eq_of_cover 5 (L1 V c) (fun t _ => flushed1 V c t) cover1

/-! ## The last layer -/

/-- The index maps over the ten grid points: the two row windows and the output window sit at row block t, the
    weights and the bias at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the node-feature block at point t is row 5000 t + p of the node features. -/
theorem blk2_0 (c : Dev nD) (t : Fin cfg2.N) (p : Fin 5000) (k : Fin 128) (r : Fin 50000) (hr : r.val = t.val * 5000 + p.val) :
    (iblk2 V c 0 t : Vec Ideal S5000x128 .f32) (ix2 p k) = (V c main_v46 : S50000x128.Idx → EReal) (ix2 r k) := by
  obtain ⟨e00, e01, -⟩ := idx2 t
  show V c main_v46 (((cfg2.win 0).blk t).view.emb (ix2 p k)) = V c main_v46 (ix2 r k)
  refine congrArg (V c main_v46) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of the neighbourhood-mean block at point t is row 5000 t + p of the neighbourhood means. -/
theorem blk2_1 (c : Dev nD) (t : Fin cfg2.N) (p : Fin 5000) (k : Fin 128) (r : Fin 50000) (hr : r.val = t.val * 5000 + p.val) :
    (iblk2 V c 1 t : Vec Ideal S5000x128 .f32) (ix2 p k) = (V c main_v58 : S50000x128.Idx → EReal) (ix2 r k) := by
  obtain ⟨-, -, e10, e11, -⟩ := idx2 t
  show V c main_v58 (((cfg2.win 1).blk t).view.emb (ix2 p k)) = V c main_v58 (ix2 r k)
  refine congrArg (V c main_v58) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The self-weight block at every point is the whole self-weight matrix. -/
theorem blk2_2 (c : Dev nD) (t : Fin cfg2.N) :
    (iblk2 V c 2 t : Vec Ideal S128x128 .f32) = (V c main_v60 : S128x128.Idx → EReal) := by
  obtain ⟨-, -, -, -, e20, e21, -⟩ := idx2 t
  funext y
  show V c main_v60 (((cfg2.win 2).blk t).view.emb y) = V c main_v60 y
  refine congrArg (V c main_v60) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The neighbour-weight block at every point is the whole neighbour-weight matrix. -/
theorem blk2_3 (c : Dev nD) (t : Fin cfg2.N) :
    (iblk2 V c 3 t : Vec Ideal S128x128 .f32) = (V c main_v62 : S128x128.Idx → EReal) := by
  obtain ⟨-, -, -, -, -, -, e30, e31, -⟩ := idx2 t
  funext y
  show V c main_v62 (((cfg2.win 3).blk t).view.emb y) = V c main_v62 y
  refine congrArg (V c main_v62) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias block at every point is the whole bias row. -/
theorem blk2_4 (c : Dev nD) (t : Fin cfg2.N) (q : Fin 128) :
    (iblk2 V c 4 t : Vec Ideal S1x128 .f32) (ix2 (0 : Fin 1) q) = (V c main_v65 : S1x128.Idx → EReal) (ix2 (0 : Fin 1) q) := by
  obtain ⟨-, -, -, -, -, -, -, -, e40, e41, -⟩ := idx2 t
  show V c main_v65 (((cfg2.win 4).blk t).view.emb (ix2 (0 : Fin 1) q)) = V c main_v65 (ix2 (0 : Fin 1) q)
  refine congrArg (V c main_v65) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The last layer's output, entry by entry, from the arrays the region finds. -/
abbrev L2 (c : Dev nD) : S50000x128.Idx → EReal := fun i =>
  conv (V c main_v46) (V c main_v58) (V c main_v60) (V c main_v62) (fun j => V c main_v65 (ix2 (0 : Fin 1) j)) (i 0) (i 1)

/-- What point t writes back is row block t of the layer's output. -/
theorem flushed2 (c : Dev nD) (t : Fin cfg2.N) :
    (dat2 (F := Ideal) V c).flushed 5 t = ((cfg2.win 5).blk t).view.read (Elt Ideal) (L2 V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = L2 V c (((cfg2.win 5).blk t).view.emb (ix2 p q))
  have hr : ((((cfg2.win 5).blk t).view.emb (ix2 p q)) 0).val = t.val * 5000 + p.val := by
    show win2_5.index t (0 : Fin 2) * 5000 + 1 * p.val = _; omega
  have hq : q = (((cfg2.win 5).blk t).view.emb (ix2 p q)) 1 := Fin.ext (by
    show q.val = win2_5.index t (1 : Fin 2) * 128 + 1 * q.val; omega)
  exact (pay2_apply (iblk2 V c 0 t) (iblk2 V c 1 t) (iblk2 V c 2 t) (iblk2 V c 3 t) (iblk2 V c 4 t) p q).trans
    (conv_of_rows (V c main_v46) (V c main_v58) (V c main_v60) (V c main_v62) (fun j => V c main_v65 (ix2 (0 : Fin 1) j)) p q
      ((((cfg2.win 5).blk t).view.emb (ix2 p q)) 0) ((((cfg2.win 5).blk t).view.emb (ix2 p q)) 1)
      (fun k => blk2_0 V c t p k _ hr) (fun k => blk2_1 V c t p k _ hr) (blk2_2 V c t) (blk2_3 V c t)
      ((blk2_4 V c t q).trans (by rw [← hq])) hq)

/-- An index of the output array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v66).slice (win2_5.rect t)).set ↔ _
  rw [View.set_slice_whole, Rect.mem_set_unit]
  exact Iff.rfl

/-- Every row is in the block of the point its number divided by 5000 names. -/
theorem cover2 (i : S50000x128.Idx) :
    ∃ t : Fin cfg2.N, (cfg2.win 5).flush t = true ∧ i ∈ ((cfg2.win 5).blk t).view.set := by
  have hN : cfg2.N = 10 := N_2
  have h0 : (i 0).val < 50000 := idx2_lt0 i
  have h1 : (i 1).val < 128 := idx2_lt1 i
  obtain ⟨t, ht⟩ : ∃ t : Fin cfg2.N, t.val = (i 0).val / 5000 := ⟨⟨(i 0).val / 5000, by rw [hN]; omega⟩, rfl⟩
  obtain ⟨-, -, -, -, -, -, -, -, -, -, e50, e51⟩ := idx2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- THE LAST LAYER: after the region its output array holds, at every (row, column), the layer's entry
    h·W_self + agg·W_neigh + b of the arrays the region found (no maximum after this layer). -/
theorem region2 (c : Dev nD) : (dat2 (F := Ideal) V c).arrAt 5 cfg2.N = fun i =>
    conv (V c main_v46) (V c main_v58) (V c main_v60) (V c main_v62) (fun j => V c main_v65 (ix2 (0 : Fin 1) j)) (i 0) (i 1) :=
  (dat2 (F := Ideal) V c).arrAt_eq_of_cover 5 (L2 V c) (fun t _ => flushed2 V c t) cover2

end Cert.KernelIdeal.Regions

end
-- ==== Proof.RegionScore.lean ====
/-
  The edge-scorer region of the idealized kernel, read as a whole array.

  The region runs over forty row blocks of 5000 rows of the stacked edge features. At a block it computes, with three
  matrix products into zero accumulators, max(max(e·W₁ + b₁, 0)·W₂ + b₂, 0)·W₃ + b₃ for the block's rows and writes the
  one-column block back. At exact arithmetic each product is, entry by entry, the finite sum over the 128 inner
  positions, and the changes of number format are the identity; a row's score reads only that row of the features. So
  each block written back is the rows of one function of the arrays the region found at its entry, the forty blocks
  tile the output column, and after the region the column is the specification's score, row by row.
-/
import proofs.«145613_j3590592659701_1_alg».proof.Proof.Gen.KernelIdeal.Frame
import proofs.«145613_j3590592659701_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Dense Idealize.ShloMosaic.ValueIdx

/-! ## A product into the zero accumulator, entry by entry -/

/-! The operand indices of the two products at an output index and a contraction index: the left operand is read at
    (the output's row, the contraction position), the right one at (the contraction position, the output's column). -/
theorem score_sq_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem score_sq_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem score_sq_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem score_sq_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
theorem score_col_lhs0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem score_col_lhs1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem score_col_rhs0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem score_col_rhs1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Entry (p, q) of the product of a 5000×128 block with a 128×128 matrix, accumulated from zero: the sum over the
    128 inner positions of the row's entries times the column's. -/
theorem score_matmul_sq_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact score_sq_lhs0 _ _
    | ⟨1, _⟩ => exact (score_sq_lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (score_sq_rhs0 _ _).trans hk
    | ⟨1, _⟩ => exact score_sq_rhs1 _ _)
  rw [el, er]

/-- Entry (p, q) of the product of a 5000×128 block with a 128×1 column, accumulated from zero. -/
theorem score_matmul_col_apply (l : FVec Ideal S5000x128 .bf16) (r : FVec Ideal S128x1 .bf16) (p : Fin 5000) (q : Fin 1) :
    matmul dot_S5000x128_S128x1_S5000x1_1_0_0_1_n_n none l r (constant (F := Ideal) S5000x1 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun a => Fin.ext (by
    match a with
    | ⟨0, _⟩ => exact score_col_lhs0 _ _
    | ⟨1, _⟩ => exact (score_col_lhs1 _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun a => Fin.ext (by
    match a with
    | ⟨0, _⟩ => exact (score_col_rhs0 _ _).trans hk
    | ⟨1, _⟩ => exact score_col_rhs1 _ _)
  rw [el, er]

/-! ## The body's arithmetic is the specification's score -/

/-- A bias row broadcast down the 5000 rows of a block reads, at (p, q), the row's entry q. -/
theorem score_bias_row_apply (hsc : S1x128.ShapeCasts S1x128) (hbc : S1x128.Broadcasts S5000x128) (b : FVec Ideal S1x128 .f32) (p : Fin 5000) (q : Fin 128) :
    broadcastTo S5000x128 (shapeCast S1x128 b hsc) hbc (ix2 p q) = b (ix2 (0 : Fin 1) q) := by
  rw [shapeCast_self]
  exact broadcastTo_apply b hbc (ix2 p q) (ix2 (0 : Fin 1) q) (fun a => by
    match a with
    | ⟨0, _⟩ => rfl
    | ⟨1, _⟩ => rfl)

/-- The scalar bias broadcast down the 5000 rows of a one-column block reads that scalar everywhere. -/
theorem score_bias_one_apply (hsc : S1x1.ShapeCasts S1x1) (hbc : S1x1.Broadcasts S5000x1) (b : FVec Ideal S1x1 .f32) (p : Fin 5000) (q : Fin 1) :
    broadcastTo S5000x1 (shapeCast S1x1 b hsc) hbc (ix2 p q) = b (ix2 (0 : Fin 1) (0 : Fin 1)) := by
  rw [shapeCast_self]
  exact broadcastTo_apply b hbc (ix2 p q) (ix2 (0 : Fin 1) (0 : Fin 1)) (fun a => by
    match a with
    | ⟨0, _⟩ => rfl
    | ⟨1, _⟩ => rfl)

/-- One hidden step of the scorer on a block, as a whole matrix: the product from zero, plus the bias row, then
    max(·, 0), is the specification's hidden step (the format changes are the identity on extended reals). -/
theorem score_hidden_vec (ht : FTy.bits .bf16 < FTy.bits .f32) (hsc : S1x128.ShapeCasts S1x128) (hbc : S1x128.Broadcasts S5000x128)
    (l : FVec Ideal S5000x128 .f32) (w : FVec Ideal S128x128 .f32) (b : FVec Ideal S1x128 .f32) :
    maximumf (addf (matmul dot_S5000x128_S128x128_S5000x128_1_0_0_1_n_n none (truncf .bf16 l ht) (truncf .bf16 w ht) (constant (F := Ideal) S5000x128 .f32 0x00000000#32))
        (broadcastTo S5000x128 (shapeCast S1x128 b hsc) hbc))
      (broadcast S5000x128 (Scalar.ofBits (F := Ideal) .f32 0x00000000#32))
      = hiddenMat (r := 5000) l w (fun j => b (ix2 (0 : Fin 1) j)) := by
  funext z
  obtain ⟨p, q, rfl⟩ : ∃ (p : Fin 5000) (q : Fin 128), z = ix2 p q := ⟨z 0, z 1, eq_ix2 z⟩
  rw [maximumf_apply, addf_apply, broadcast_apply, score_matmul_sq_apply, score_bias_row_apply]
  rfl

/-- THE PAYLOAD at entry (p, q) of its block: the specification's score of the loaded blocks, the two bias rows read
    off their one row and the last bias off its one entry. -/
theorem score_pay_apply (v0 : Vec Ideal S5000x128 .f32) (v3 : Vec Ideal S128x128 .f32) (v5 : Vec Ideal S128x128 .f32) (v7 : Vec Ideal S128x1 .f32)
    (v10 : Vec Ideal S1x128 .f32) (v18 : Vec Ideal S1x128 .f32) (v26 : Vec Ideal S1x1 .f32) (p : Fin 5000) (q : Fin 1) :
    k3_pay1 (F := Ideal) v0 v3 v5 v7 v10 v18 v26 (ix2 p q)
      = score (r := 5000) v0 v3 (fun j => v10 (ix2 (0 : Fin 1) j)) v5 (fun j => v18 (ix2 (0 : Fin 1) j)) v7 (v26 (ix2 (0 : Fin 1) (0 : Fin 1))) p q := by
  unfold k3_pay1
  rw [shapeCast_self, score_hidden_vec, score_hidden_vec, addf_apply, score_matmul_col_apply, score_bias_one_apply]
  rfl

/-- The payload of blocks that are rows of the arrays: if row p of the features' block is row r of the features
    array and every other block is its whole array, entry (p, q) of the payload is the array's score in row r. -/
theorem score_of_blocks (E : Mat 200000 128) (W1 W2 : Mat 128 128) (B1 B2 : Mat 1 128) (W3 : Mat 128 1) (B3 : Mat 1 1)
    (x0 : Vec Ideal S5000x128 .f32) (x1 x3 : Vec Ideal S128x128 .f32) (x2 x4 : Vec Ideal S1x128 .f32) (x5 : Vec Ideal S128x1 .f32) (x6 : Vec Ideal S1x1 .f32)
    (r : Fin 200000) (p : Fin 5000) (q q' : Fin 1)
    (h0 : ∀ k : Fin 128, x0 (ix2 p k) = E (ix2 r k)) (h1 : x1 = W1) (h2 : x2 = B1) (h3 : x3 = W2) (h4 : x4 = B2) (h5 : x5 = W3) (h6 : x6 = B3) :
    k3_pay1 (F := Ideal) x0 x1 x3 x5 x2 x4 x6 (ix2 p q)
      = score E W1 (fun j => B1 (ix2 (0 : Fin 1) j)) W2 (fun j => B2 (ix2 (0 : Fin 1) j)) W3 (B3 (ix2 (0 : Fin 1) (0 : Fin 1))) r q' := by
  subst h1 h2 h3 h4 h5 h6
  rw [Subsingleton.elim q' q]
  exact (score_pay_apply x0 x1 x3 x5 x2 x4 x6 p q).trans (score_congr _ _ _ _ _ _ h0 q)

/-! ## From blocks to the array -/

theorem score_hz : (![0, 0] : Fin 2 → Nat) = fun _ => 0 := funext fun a => by fin_cases a <;> rfl

/-- The printed index maps over the 40 grid points: the features' block and the output's block at point t are both
    block t along the rows; every other window is its whole array at every point. -/
theorem score_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

variable (V : (c : Dev nD) → (b : Ref sig .tc) → Buf (Elt Ideal) ((c : Thread nD τ).loc b))

/-- WHAT POINT t WRITES BACK is block t of the scores of the arrays the region finds. -/
theorem score_flushed_eq (c : Dev nD) (t : Fin cfg3.N) :
    (dat3 (F := Ideal) V c).flushed 7 t = ((cfg3.win 7).blk t).view.read (Elt Ideal) (fun i => score (V c main_v97) (V c main_arg4) (fun j => V c main_v98 (ix2 (0 : Fin 1) j)) (V c main_arg6) (fun j => V c main_v99 (ix2 (0 : Fin 1) j)) (V c main_arg8) (V c main_v100 (ix2 (0 : Fin 1) (0 : Fin 1))) (i 0) (i 1)) := by
  show (cfg3.win 7).cut (grid3.coords t) ((dat3 (F := Ideal) V c).after 7 t) = _
  rw [after3_7]
  unfold out3_7
  rw [View.canon_unit_zero score_hz]
  simp only [View.ld_unit_zero (S := S5000x128) score_hz, View.ld_unit_zero (S := S128x128) score_hz, View.ld_unit_zero (S := S128x1) score_hz,
    View.ld_unit_zero (S := S1x128) score_hz, View.ld_unit_zero (S := S1x1) score_hz]
  obtain ⟨e00, e01, e10, e11, e20, e21, e30, e31, e40, e41, e50, e51, e60, e61, e70, e71⟩ := score_idx_facts t
  refine funext fun j => ?_
  obtain ⟨p, q, rfl⟩ : ∃ (p : Fin 5000) (q : Fin 1), j = ix2 p q := ⟨j 0, j 1, eq_ix2 j⟩
  have hp : p.val < 5000 := p.isLt
  refine score_of_blocks (V c main_v97) (V c main_arg4) (V c main_arg6) (V c main_v98) (V c main_v99) (V c main_arg8) (V c main_v100)
    (iblk3 V c 0 t) (iblk3 V c 1 t) (iblk3 V c 3 t) (iblk3 V c 2 t) (iblk3 V c 4 t) (iblk3 V c 5 t) (iblk3 V c 6 t)
    (((cfg3.win 7).blk t).view.emb (ix2 p q) 0) p q (((cfg3.win 7).blk t).view.emb (ix2 p q) 1) (fun k => ?_) ?_ ?_ ?_ ?_ ?_ ?_
  · have hk : k.val < 128 := k.isLt
    show V c main_v97 (((cfg3.win 0).blk t).view.emb (ix2 p k)) = V c main_v97 _
    refine congrArg (V c main_v97) (funext fun a => Fin.ext ?_)
    match a with
    | ⟨0, _⟩ => show win3_0.index t (0 : Fin 2) * 5000 + 1 * p.val = win3_7.index t (0 : Fin 2) * 5000 + 1 * p.val; omega
    | ⟨1, _⟩ => show win3_0.index t (1 : Fin 2) * 128 + 1 * k.val = k.val; omega
  · refine funext fun y => ?_
    show V c main_arg4 (((cfg3.win 1).blk t).view.emb y) = V c main_arg4 y
    refine congrArg (V c main_arg4) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · refine funext fun y => ?_
    show V c main_v98 (((cfg3.win 2).blk t).view.emb y) = V c main_v98 y
    refine congrArg (V c main_v98) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · refine funext fun y => ?_
    show V c main_arg6 (((cfg3.win 3).blk t).view.emb y) = V c main_arg6 y
    refine congrArg (V c main_arg6) (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  · refine funext fun y => ?_
    show V c main_v99 (((cfg3.win 4).blk t).view.emb y) = V c main_v99 y
    refine congrArg (V c main_v99) (funext fun a => Fin.ext ?_)
    match a with
    | ⟨0, _⟩ => show win3_4.index t (0 : Fin 2) * 1 + 1 * (y 0).val = (y 0).val; omega
    | ⟨1, _⟩ => show win3_4.index t (1 : Fin 2) * 128 + 1 * (y 1).val = (y 1).val; omega
  · refine funext fun y => ?_
    show V c main_arg8 (((cfg3.win 5).blk t).view.emb y) = V c main_arg8 y
    refine congrArg (V c main_arg8) (funext fun a => Fin.ext ?_)
    match a with
    | ⟨0, _⟩ => show win3_5.index t (0 : Fin 2) * 128 + 1 * (y 0).val = (y 0).val; omega
    | ⟨1, _⟩ => show win3_5.index t (1 : Fin 2) * 1 + 1 * (y 1).val = (y 1).val; omega
  · refine funext fun y => ?_
    show V c main_v100 (((cfg3.win 6).blk t).view.emb y) = V c main_v100 y
    refine congrArg (V c main_v100) (funext fun a => Fin.ext ?_)
    match a with
    | ⟨0, _⟩ => show win3_6.index t (0 : Fin 2) * 1 + 1 * (y 0).val = (y 0).val; omega
    | ⟨1, _⟩ => show win3_6.index t (1 : Fin 2) * 1 + 1 * (y 1).val = (y 1).val; omega

/-- An index of the output array is in point t's block iff each coordinate is in the block's range on its axis. -/
theorem score_mem_blk (t : Fin cfg3.N) (i : S200000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v101).slice (win3_7.rect t)).set ↔ _
  rw [View.set_slice_whole, Rect.mem_set_unit]
  exact Iff.rfl

/-- Every row of the output is in some point's block: row r in the block of point r / 5000. -/
theorem score_cover (i : S200000x1.Idx) : ∃ t : Fin cfg3.N, (cfg3.win 7).flush t = true ∧ i ∈ ((cfg3.win 7).blk t).view.set := by
  have hi0 : (i 0).val < 200000 := (i 0).isLt
  have hi1 : (i 1).val < 1 := (i 1).isLt
  obtain ⟨t, ht⟩ : ∃ t : Fin cfg3.N, t.val = (i 0).val / 5000 := ⟨⟨(i 0).val / 5000, by show (i 0).val / 5000 < 40; omega⟩, rfl⟩
  obtain ⟨e00, e01, e10, e11, e20, e21, e30, e31, e40, e41, e50, e51, e60, e61, e70, e71⟩ := score_idx_facts t
  refine ⟨t, flush3_7 t, ?_⟩
  rw [score_mem_blk]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 1 ≤ (i 1).val ∧ (i 1).val < win3_7.index t (1 : Fin 2) * 1 + 1; omega

/-- THE SCORER'S REGION: after its 40 points the output array holds, row by row, the specification's score of the
    arrays the region found at its entry. -/
theorem region3 (c : Dev nD) : (dat3 (F := Ideal) V c).arrAt 7 cfg3.N = fun i => score (V c main_v97) (V c main_arg4) (fun j => V c main_v98 (ix2 (0 : Fin 1) j)) (V c main_arg6) (fun j => V c main_v99 (ix2 (0 : Fin 1) j)) (V c main_arg8) (V c main_v100 (ix2 (0 : Fin 1) (0 : Fin 1))) (i 0) (i 1) :=
  (dat3 (F := Ideal) V c).arrAt_eq_of_cover 7 _ (fun t _ => score_flushed_eq V c t) score_cover

end Cert.KernelIdeal.Regions

end
-- ==== Proof.Boundary.lean ====
/-
  The idealized kernel's buffers at its segment boundaries, as the reference's stages of the launch arrays.

  Going along the fold of the kernel's nine segments: what a host stretch leaves is its operations applied to what
  the previous boundary held; what a region leaves in its output array is the dense arithmetic (Proof/DenseSpec) of the
  arrays it found. The gathers, scatter-adds, divisions and slices of the kernel's host stretches are, operation by
  operation, those of the reference; the dense steps agree entry by entry. So layer after layer the kernel's output
  array IS the reference's stage, and the two results — the two halves of one column of scores over the stacked
  positive and negative edge features — are the reference's two score columns.
-/
import proofs.«145613_j3590592659701_1_alg».proof.Proof.Carried
import proofs.«145613_j3590592659701_1_alg».proof.Proof.HostRows
import proofs.«145613_j3590592659701_1_alg».proof.Proof.DenseSpec
import proofs.«145613_j3590592659701_1_alg».proof.Proof.RefStages
import proofs.«145613_j3590592659701_1_alg».proof.Proof.RegionConv
import proofs.«145613_j3590592659701_1_alg».proof.Proof.RegionScore
import Idealize.ShloMosaic.Lib.Pipeline.Value
import Idealize.ShloMosaic.Lib.ValueIdx
import Idealize.ShloMosaic.Lib.StableHlo.Run

set_option maxRecDepth 16384

noncomputable section

namespace Cert.KernelIdeal.Boundary

open Cert.KernelIdeal Cert.KernelIdeal.Gen Cert.ReferenceIdeal.Read Cert.ReferenceIdeal Cert.Dense
open Idealize.ShloMosaic Idealize.ShloMosaic.TcCoe Idealize.ShloMosaic.Tactic Idealize.ShloMosaic.ValueIdx Idealize.ShloMosaic.StableHlo
open Idealize.SL.Sem

variable (m : (ℓ : Loc nD τ sig) → Buf (Elt Ideal) ℓ) (ρ : Dev nD → PrngReg) (c : Dev nD)

/-! ## Layer 0 -/

/-- The features the first region finds: the node features as launched. -/
theorem in0_h : W1 m ρ c (Proc.devRef .tc main_arg0) = arg m c main_arg0 := by
  show StableHlo.after hostOps0 (W0 m ρ c) (Proc.devRef .tc main_arg0) = _
  after_results_simp <;> rfl

/-- The neighbourhood means it finds: the first stretch's gather, scatter-add and division, of the node features. -/
theorem in0_agg : W1 m ρ c (Proc.devRef .tc main_v18) = val_main_v18 (F := Ideal) (arg m c main_arg0) (arg m c main_arg10) (arg m c main_arg11) := by
  show StableHlo.after hostOps0 (W0 m ρ c) (Proc.devRef .tc main_v18) = _
  after_results_simp <;> rfl

theorem in0_ws : W1 m ρ c (Proc.devRef .tc main_v20) = val_main_v20 (F := Ideal) (arg m c main_arg1) := by
  show StableHlo.after hostOps0 (W0 m ρ c) (Proc.devRef .tc main_v20) = _
  after_results_simp <;> rfl

theorem in0_wn : W1 m ρ c (Proc.devRef .tc main_v22) = val_main_v23 (F := Ideal) (arg m c main_arg2) := by
  show StableHlo.after hostOps0 (W0 m ρ c) (Proc.devRef .tc main_v22) = _
  after_results_simp <;> rfl

/-- The bias row it finds holds, in column j, the stacked biases' entry (0, j). -/
theorem in0_bias : (fun j : Fin 128 => W1 m ρ c (Proc.devRef .tc main_v25) (ix2 (0 : Fin 1) j))
    = fun j => arg m c main_arg3 (ix2 (0 : Fin 3) j) := by
  funext j
  show StableHlo.after hostOps0 (W0 m ρ c) (Proc.devRef .tc main_v25) (ix2 (0 : Fin 1) j) = _
  after_results_simp
  exact Rows.bias_row (arg m c main_arg3) (0 : Fin 3) _ _ _ j

/-- After the first region its output array is the reference's layer-0 stage of the launch arrays. -/
theorem out0 : W2 m ρ c (Proc.devRef .tc main_v26) = val_main_v31 (F := Ideal) (arg m c main_arg0) (arg m c main_arg1) (arg m c main_arg2) (arg m c main_arg3) (arg m c main_arg10) (arg m c main_arg11) := by
  refine (W2_arr m ρ c 5).trans ?_
  rw [Regions.region0 (V1 m ρ) c]
  funext i
  rw [Stages.layer0]
  show convRelu (W1 m ρ c (Proc.devRef .tc main_arg0)) (W1 m ρ c (Proc.devRef .tc main_v18)) (W1 m ρ c (Proc.devRef .tc main_v20))
      (W1 m ρ c (Proc.devRef .tc main_v22)) (fun j : Fin 128 => W1 m ρ c (Proc.devRef .tc main_v25) (ix2 (0 : Fin 1) j)) (i 0) (i 1) = _
  rw [in0_h m ρ c, in0_agg m ρ c, in0_ws m ρ c, in0_wn m ρ c, in0_bias m ρ c]

/-! ## Layer 1 -/

/-- The features the region of layer 1 finds: the previous layer's output. -/
theorem in1_h : W3 m ρ c (Proc.devRef .tc main_v26) = val_main_v31 (F := Ideal) (arg m c main_arg0) (arg m c main_arg1) (arg m c main_arg2) (arg m c main_arg3) (arg m c main_arg10) (arg m c main_arg11) := by
  show StableHlo.after hostOps1 (W2 m ρ c) (Proc.devRef .tc main_v26) = _
  after_results_simp
  exact out0 m ρ c

/-- The neighbourhood means it finds: the gather, scatter-add and division of this stretch, of the previous layer's output. -/
theorem in1_agg : W3 m ρ c (Proc.devRef .tc main_v38) = val_main_v43 (F := Ideal) (arg m c main_arg0) (arg m c main_arg1) (arg m c main_arg2) (arg m c main_arg3) (arg m c main_arg10) (arg m c main_arg11) := by
  show StableHlo.after hostOps1 (W2 m ρ c) (Proc.devRef .tc main_v38) = _
  after_results_simp
  rw [out0 m ρ c, at2_arg10 m ρ c, at2_arg11 m ρ c, at2_deg m ρ c]
  rfl

theorem in1_ws : W3 m ρ c (Proc.devRef .tc main_v40) = val_main_v45 (F := Ideal) (arg m c main_arg1) := by
  show StableHlo.after hostOps1 (W2 m ρ c) (Proc.devRef .tc main_v40) = _
  after_results_simp
  rw [at2_arg1 m ρ c]
  rfl

theorem in1_wn : W3 m ρ c (Proc.devRef .tc main_v42) = val_main_v48 (F := Ideal) (arg m c main_arg2) := by
  show StableHlo.after hostOps1 (W2 m ρ c) (Proc.devRef .tc main_v42) = _
  after_results_simp
  rw [at2_arg2 m ρ c]
  rfl

/-- The bias row it finds holds, in column j, the stacked biases' entry (1, j). -/
theorem in1_bias : (fun j : Fin 128 => W3 m ρ c (Proc.devRef .tc main_v45) (ix2 (0 : Fin 1) j))
    = fun j => arg m c main_arg3 (ix2 (1 : Fin 3) j) := by
  funext j
  show StableHlo.after hostOps1 (W2 m ρ c) (Proc.devRef .tc main_v45) (ix2 (0 : Fin 1) j) = _
  after_results_simp
  rw [at2_arg3 m ρ c]
  exact Rows.bias_row (arg m c main_arg3) (1 : Fin 3) _ _ _ j

/-- After the region of layer 1 its output array is the reference's layer-1 stage of the launch arrays. -/
theorem out1 : W4 m ρ c (Proc.devRef .tc main_v46) = val_main_v56 (F := Ideal) (arg m c main_arg0) (arg m c main_arg1) (arg m c main_arg2) (arg m c main_arg3) (arg m c main_arg10) (arg m c main_arg11) := by
  refine (W4_arr m ρ c 5).trans ?_
  rw [Regions.region1 (V3 m ρ) c]
  funext i
  rw [Stages.layer1]
  show convRelu (W3 m ρ c (Proc.devRef .tc main_v26)) (W3 m ρ c (Proc.devRef .tc main_v38)) (W3 m ρ c (Proc.devRef .tc main_v40))
      (W3 m ρ c (Proc.devRef .tc main_v42)) (fun j : Fin 128 => W3 m ρ c (Proc.devRef .tc main_v45) (ix2 (0 : Fin 1) j)) (i 0) (i 1) = _
  rw [in1_h m ρ c, in1_agg m ρ c, in1_ws m ρ c, in1_wn m ρ c, in1_bias m ρ c]

/-! ## Layer 2 -/

/-- The features the region of layer 2 finds: the previous layer's output. -/
theorem in2_h : W5 m ρ c (Proc.devRef .tc main_v46) = val_main_v56 (F := Ideal) (arg m c main_arg0) (arg m c main_arg1) (arg m c main_arg2) (arg m c main_arg3) (arg m c main_arg10) (arg m c main_arg11) := by
  show StableHlo.after hostOps2 (W4 m ρ c) (Proc.devRef .tc main_v46) = _
  after_results_simp
  exact out1 m ρ c

/-- The neighbourhood means it finds: the gather, scatter-add and division of this stretch, of the previous layer's output. -/
theorem in2_agg : W5 m ρ c (Proc.devRef .tc main_v58) = val_main_v68 (F := Ideal) (arg m c main_arg0) (arg m c main_arg1) (arg m c main_arg2) (arg m c main_arg3) (arg m c main_arg10) (arg m c main_arg11) := by
  show StableHlo.after hostOps2 (W4 m ρ c) (Proc.devRef .tc main_v58) = _
  after_results_simp
  rw [out1 m ρ c, at4_arg10 m ρ c, at4_arg11 m ρ c, at4_deg m ρ c]
  rfl

theorem in2_ws : W5 m ρ c (Proc.devRef .tc main_v60) = val_main_v70 (F := Ideal) (arg m c main_arg1) := by
  show StableHlo.after hostOps2 (W4 m ρ c) (Proc.devRef .tc main_v60) = _
  after_results_simp
  rw [at4_arg1 m ρ c]
  rfl

theorem in2_wn : W5 m ρ c (Proc.devRef .tc main_v62) = val_main_v73 (F := Ideal) (arg m c main_arg2) := by
  show StableHlo.after hostOps2 (W4 m ρ c) (Proc.devRef .tc main_v62) = _
  after_results_simp
  rw [at4_arg2 m ρ c]
  rfl

/-- The bias row it finds holds, in column j, the stacked biases' entry (2, j). -/
theorem in2_bias : (fun j : Fin 128 => W5 m ρ c (Proc.devRef .tc main_v65) (ix2 (0 : Fin 1) j))
    = fun j => arg m c main_arg3 (ix2 (2 : Fin 3) j) := by
  funext j
  show StableHlo.after hostOps2 (W4 m ρ c) (Proc.devRef .tc main_v65) (ix2 (0 : Fin 1) j) = _
  after_results_simp
  rw [at4_arg3 m ρ c]
  exact Rows.bias_row (arg m c main_arg3) (2 : Fin 3) _ _ _ j

/-- After the region of layer 2 its output array is the reference's layer-2 stage of the launch arrays. -/
theorem out2 : W6 m ρ c (Proc.devRef .tc main_v66) = val_main_v80 (F := Ideal) (arg m c main_arg0) (arg m c main_arg1) (arg m c main_arg2) (arg m c main_arg3) (arg m c main_arg10) (arg m c main_arg11) := by
  refine (W6_arr m ρ c 5).trans ?_
  rw [Regions.region2 (V5 m ρ) c]
  funext i
  rw [Stages.layer2]
  show conv (W5 m ρ c (Proc.devRef .tc main_v46)) (W5 m ρ c (Proc.devRef .tc main_v58)) (W5 m ρ c (Proc.devRef .tc main_v60))
      (W5 m ρ c (Proc.devRef .tc main_v62)) (fun j : Fin 128 => W5 m ρ c (Proc.devRef .tc main_v65) (ix2 (0 : Fin 1) j)) (i 0) (i 1) = _
  rw [in2_h m ρ c, in2_agg m ρ c, in2_ws m ρ c, in2_wn m ρ c, in2_bias m ρ c]

/-! ## The edge scorer -/

/-- A row of the first half of the stacked edge features the last region finds is the reference's positive-edge
    feature row: the product of the two gathered rows of the last layer's output. -/
theorem in3_pos (r : Fin 100000) (k : Fin 128) :
    W7 m ρ c (Proc.devRef .tc main_v97) (ix2 (⟨r.val, by have := r.isLt; omega⟩ : Fin 200000) k)
      = val_main_v95 (F := Ideal) (arg m c main_arg0) (arg m c main_arg1) (arg m c main_arg2) (arg m c main_arg3) (arg m c main_arg10) (arg m c main_arg11) (arg m c main_arg12) (arg m c main_arg13) (ix2 r k) := by
  show StableHlo.after hostOps3 (W6 m ρ c) (Proc.devRef .tc main_v97) _ = _
  after_results_simp
  refine (Rows.stacked_first _ _ _ r k).trans ?_
  rw [out2 m ρ c, at6_arg12 m ρ c, at6_arg13 m ρ c]
  rfl

/-- … and a row of the second half is the reference's negative-edge feature row. -/
theorem in3_neg (r : Fin 100000) (k : Fin 128) :
    W7 m ρ c (Proc.devRef .tc main_v97) (ix2 (⟨100000 + r.val, by have := r.isLt; omega⟩ : Fin 200000) k)
      = val_main_v124 (F := Ideal) (arg m c main_arg0) (arg m c main_arg1) (arg m c main_arg2) (arg m c main_arg3) (arg m c main_arg10) (arg m c main_arg11) (arg m c main_arg14) (arg m c main_arg15) (ix2 r k) := by
  show StableHlo.after hostOps3 (W6 m ρ c) (Proc.devRef .tc main_v97) _ = _
  after_results_simp
  refine (Rows.stacked_second _ _ _ r k).trans ?_
  rw [out2 m ρ c, at6_arg14 m ρ c, at6_arg15 m ρ c]
  rfl

/-- The first hidden step's bias row holds, in column j, the bias vector's entry j. -/
theorem in3_b1 : (fun j : Fin 128 => W7 m ρ c (Proc.devRef .tc main_v98) (ix2 (0 : Fin 1) j)) = fun j => arg m c main_arg5 (ix1 j) := by
  funext j
  show StableHlo.after hostOps3 (W6 m ρ c) (Proc.devRef .tc main_v98) (ix2 (0 : Fin 1) j) = _
  after_results_simp
  rw [at6_arg5 m ρ c]
  exact Rows.row_of_vec _ _ j

theorem in3_b2 : (fun j : Fin 128 => W7 m ρ c (Proc.devRef .tc main_v99) (ix2 (0 : Fin 1) j)) = fun j => arg m c main_arg7 (ix1 j) := by
  funext j
  show StableHlo.after hostOps3 (W6 m ρ c) (Proc.devRef .tc main_v99) (ix2 (0 : Fin 1) j) = _
  after_results_simp
  rw [at6_arg7 m ρ c]
  exact Rows.row_of_vec _ _ j

theorem in3_b3 : W7 m ρ c (Proc.devRef .tc main_v100) (ix2 (0 : Fin 1) (0 : Fin 1)) = arg m c main_arg9 (ix1 (0 : Fin 1)) := by
  show StableHlo.after hostOps3 (W6 m ρ c) (Proc.devRef .tc main_v100) (ix2 (0 : Fin 1) (0 : Fin 1)) = _
  after_results_simp
  rw [at6_arg9 m ρ c]
  exact Rows.cell_of_vec _ _

/-- After the last region its one-column output holds, in row i, the score of row i of the stacked edge features,
    with the scorer's weights and biases as launched. -/
theorem out3 : W8 m ρ c (Proc.devRef .tc main_v101)
    = fun i => score (W7 m ρ c (Proc.devRef .tc main_v97)) (arg m c main_arg4) (fun j : Fin 128 => arg m c main_arg5 (ix1 j)) (arg m c main_arg6) (fun j : Fin 128 => arg m c main_arg7 (ix1 j)) (arg m c main_arg8) (arg m c main_arg9 (ix1 (0 : Fin 1))) (i 0) (i 1) := by
  refine (W8_arr m ρ c 7).trans ?_
  rw [Regions.region3 (V7 m ρ) c]
  funext i
  show score (W7 m ρ c (Proc.devRef .tc main_v97)) (W7 m ρ c (Proc.devRef .tc main_arg4))
      (fun j : Fin 128 => W7 m ρ c (Proc.devRef .tc main_v98) (ix2 (0 : Fin 1) j)) (W7 m ρ c (Proc.devRef .tc main_arg6))
      (fun j : Fin 128 => W7 m ρ c (Proc.devRef .tc main_v99) (ix2 (0 : Fin 1) j)) (W7 m ρ c (Proc.devRef .tc main_arg8))
      (W7 m ρ c (Proc.devRef .tc main_v100) (ix2 (0 : Fin 1) (0 : Fin 1))) (i 0) (i 1) = _
  rw [at7_arg4 m ρ c, at7_arg6 m ρ c, at7_arg8 m ρ c, in3_b1 m ρ c, in3_b2 m ρ c, in3_b3 m ρ c]

/-! ## The two results -/

/-- The kernel's first result, the first half of the score column, is the reference's positive-edge scores: row i of
    the stacked features is the positive-edge feature row i, and a score reads only its own row. -/
theorem result0 : W9 m ρ c (Proc.devRef .tc main_v102) = val_main_v109 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) := by
  funext i
  show StableHlo.after hostOps4 (W8 m ρ c) (Proc.devRef .tc main_v102) i = _
  after_results_simp
  rw [Rows.first_half, out3 m ρ c, Stages.scorePos]
  exact score_congr _ _ _ _ _ _ (fun k => in3_pos m ρ c ⟨(i 0).val, idx2_lt0 i⟩ k) (i 1)

/-- The second result, the second half of the score column, is the reference's negative-edge scores. -/
theorem result1 : W9 m ρ c (Proc.devRef .tc main_v103) = val_main_v138 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15) := by
  funext i
  show StableHlo.after hostOps4 (W8 m ρ c) (Proc.devRef .tc main_v103) i = _
  after_results_simp
  rw [Rows.second_half, out3 m ρ c, Stages.scoreNeg]
  exact score_congr _ _ _ _ _ _ (fun k => in3_neg m ρ c ⟨(i 0).val, idx2_lt0 i⟩ k) (i 1)

end Cert.KernelIdeal.Boundary

end
-- ==== Proof.Claims.lean ====
/-
  The five claims of the certificate, assembled.

  Two programs compute a three-layer graph convolution followed by an edge scorer on two batches of edges. The
  kernel evaluates the dense parts by matrix products over blocks of rows in four pipelined regions; the reference
  by whole-array products. The frames are the generated ones. The value claim reads the kernel's two result arrays
  off the final stage of its run (every buffer's final contents is kept by the whole-run theorem), identifies them
  with the reference's last stages as functions of the launch arrays, and reads the reference's results off its
  own run; the two memories agree on the arguments, so the two pairs of arrays are equal. No precondition is used.
-/
import proofs.«145613_j3590592659701_1_alg».proof.Defs
import proofs.«145613_j3590592659701_1_alg».proof.Proof.Gen.Kernel.Frame
import proofs.«145613_j3590592659701_1_alg».proof.Proof.Gen.KernelIdeal.Frame
import proofs.«145613_j3590592659701_1_alg».proof.Proof.Gen.ReferenceIdeal.Run
import proofs.«145613_j3590592659701_1_alg».proof.Proof.Gen.ReferenceIdeal.Read
import proofs.«145613_j3590592659701_1_alg».proof.Proof.Gen.Pre_finite_inputs
import proofs.«145613_j3590592659701_1_alg».proof.Proof.KernelRun
import proofs.«145613_j3590592659701_1_alg».proof.Proof.Carried
import proofs.«145613_j3590592659701_1_alg».proof.Proof.Boundary

noncomputable section

open Idealize.ShloMosaic Idealize.ShloMosaic.TcCoe Idealize.SL.Sem

namespace Cert.Proof.Claims

open Cert.KernelIdeal Cert.KernelIdeal.Gen Cert.KernelIdeal.Boundary Cert.ReferenceIdeal.Read

/-- The kernel as printed runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's generated run states its two results and its sixteen arguments; the frame keeps the arguments. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: the idealization is the program's own text read over the extended reals. -/
theorem preserves : Cert.preserves_Kernel_KernelIdeal := trivial

/-- Over the extended reals, from memories that agree on the sixteen arguments, both programs run, and both end
    with the reference's two last stages of the kernel's launch arrays in their result arrays: the kernel because
    its final stage at each result is that function of its arguments, the reference because its run says so of its
    own arguments, which are the kernel's. -/
theorem algebraic : Cert.algebraic_KernelIdeal_ReferenceIdeal := by
  intro m ρ m' ρ' _ hagree
  refine ⟨fun c => val_main_v109 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13),
    fun c => val_main_v138 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg14) (arg m c main_arg15), ?_, ?_⟩
  · exact (θ_run Cert.KernelIdeal.defs _ _).mono (fun _ h c =>
      ⟨(h c _ (mem_uc main_v102 (by decide))).trans (result0 m ρ c),
       (h c _ (mem_uc main_v103 (by decide))).trans (result1 m ρ c),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c)⟩)
      (Cert.KernelIdeal.Whole.run_all m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [val_main_v109_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    · rw [val_main_v138_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.2.2.1, (hagree c).2.2.2.2.2.2.2.2.2.2.2.2.2.2.2]

end Cert.Proof.Claims

end
-- ==== Proof.lean ====
/-
  The proof of `Cert.Claim`: frame_Kernel ∧ frame_KernelIdeal ∧ frame_ReferenceIdeal ∧ preserves_Kernel_KernelIdeal ∧
  algebraic_KernelIdeal_ReferenceIdeal.

  The two programs compute the same thing: a three-layer graph convolution over 50000 nodes with 128 features (each
  layer h·W_self + mean-of-neighbours·W_neigh + b, with max(·, 0) after the first two), followed by an edge scorer
  max(max(e·W₁ + b₁, 0)·W₂ + b₂, 0)·W₃ + b₃ on two batches of 100000 edges, where e is the product of the two end
  nodes' features. The gathers, the scatter-adds and the division that form the neighbourhood mean are host
  operations in both programs. The kernel evaluates the dense parts by matrix products into a zero accumulator over
  blocks of 5000 rows, in four pipelined regions (one per layer, one for the scorer on both batches together); the
  reference evaluates them by whole-array products. Over the extended reals each entry of either is the same finite
  sum, so the two pairs of result arrays are equal entry by entry. The frames are the generated ones, the idealized kernel
  is the kernel's own text read over the extended reals (no operation is rewritten), and no precondition is used.
-/
import proofs.«145613_j3590592659701_1_alg».proof.Defs
import proofs.«145613_j3590592659701_1_alg».proof.Proof.Gen.Kernel
import proofs.«145613_j3590592659701_1_alg».proof.Proof.Gen.Kernel.Skeleton
import proofs.«145613_j3590592659701_1_alg».proof.Proof.Gen.Kernel.Launch
import proofs.«145613_j3590592659701_1_alg».proof.Proof.Gen.Kernel.Points
import proofs.«145613_j3590592659701_1_alg».proof.Proof.Gen.Kernel.Frame
import proofs.«145613_j3590592659701_1_alg».proof.Proof.Gen.KernelIdeal
import proofs.«145613_j3590592659701_1_alg».proof.Proof.Gen.KernelIdeal.Skeleton
import proofs.«145613_j3590592659701_1_alg».proof.Proof.Gen.KernelIdeal.Launch
import proofs.«145613_j3590592659701_1_alg».proof.Proof.Gen.KernelIdeal.Points
import proofs.«145613_j3590592659701_1_alg».proof.Proof.Gen.KernelIdeal.Frame
import proofs.«145613_j3590592659701_1_alg».proof.Proof.Gen.ReferenceIdeal
import proofs.«145613_j3590592659701_1_alg».proof.Proof.Gen.ReferenceIdeal.Run
import proofs.«145613_j3590592659701_1_alg».proof.Proof.Gen.ReferenceIdeal.Read
import proofs.«145613_j3590592659701_1_alg».proof.Proof.Gen.Pre_finite_inputs
import Idealize.ShloMosaic.Adequacy
import Idealize.ShloMosaic.Init
import proofs.«145613_j3590592659701_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
